-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S131072 : Shape := ⟨1, ![131072]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S4x2048x4096 .f32) (main_arg1 : FVec F S4096x4096 .f32) (main_arg2 : FVec F S131072 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S131072 .f32 := Host.absf main_arg2
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S131072 : Shape := ⟨1, ![131072]⟩
abbrev S4096x32 : Shape := ⟨2, ![4096, 32]⟩
abbrev S512x4096 : Shape := ⟨2, ![512, 4096]⟩
abbrev S512x32 : Shape := ⟨2, ![512, 32]⟩
abbrev S512x32x1 : Shape := ⟨3, ![512, 32, 1]⟩
abbrev S512x32x128 : Shape := ⟨3, ![512, 32, 128]⟩
abbrev S8192x4096 : Shape := ⟨2, ![8192, 4096]⟩
abbrev S1024x256 : Shape := ⟨2, ![1024, 256]⟩
abbrev S2048x256 : Shape := ⟨2, ![2048, 256]⟩
abbrev S1024x2048 : Shape := ⟨2, ![1024, 2048]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S131072, .f32⟩
  | .hbm, ⟨3, _⟩ => ⟨S4096x32, .f32⟩
  | .hbm, ⟨4, _⟩ => ⟨S4096x4096, .bf16⟩
  | .hbm, ⟨5, _⟩ => ⟨S8192x4096, .f32⟩
  | .hbm, ⟨6, _⟩ => ⟨S8192x4096, .f32⟩
  | .hbm, ⟨7, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x32, .f32⟩
  | .local _ .vmem, ⟨3, _⟩ => ⟨S512x32, .f32⟩
  | .local _ .vmem, ⟨4, _⟩ => ⟨S512x4096, .bf16⟩
  | .local _ .vmem, ⟨5, _⟩ => ⟨S512x4096, .bf16⟩
  | .local _ .vmem, ⟨6, _⟩ => ⟨S1024x256, .f32⟩
  | .local _ .vmem, ⟨7, _⟩ => ⟨S1024x256, .f32⟩
  | .local _ .vmem, ⟨8, _⟩ => ⟨S2048x256, .bf16⟩
  | .local _ .vmem, ⟨9, _⟩ => ⟨S2048x256, .bf16⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S131072_S4096x32 : S131072.ShapeCasts S4096x32
  inb_S512x4096_S512x4096_0_0 : ∀ a, (![0, 0] : Fin 2 → Nat) a + S512x4096.size a ≤ S512x4096.size a
  h_S512x4096 : 0 < S512x4096.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  shapeCasts_S512x32_S512x32x1 : S512x32.ShapeCasts S512x32x1
  shapeCasts_S512x32x1_S512x32x1 : S512x32x1.ShapeCasts S512x32x1
  broadcasts_S512x32x1_S512x32x128 : S512x32x1.Broadcasts S512x32x128
  shapeCasts_S512x32x128_S512x4096 : S512x32x128.ShapeCasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4x2048x4096_S8192x4096 : S4x2048x4096.ShapeCasts S8192x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S8192x4096_S4x2048x4096 : S8192x4096.ShapeCasts S4x2048x4096
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S4096x32.size a
  hwx0_1 : ∀ i : grid0.Coords, EltTy.bits .f32 = 32 ∨ (Rect.block (s := S4096x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x4096.size a
  hwx1_2 : ∀ i : grid1.Coords, EltTy.bits .f32 = 32 ∨ (Rect.block (s := S8192x4096) S1024x2048.size (cc1_transform_2 i) (hinb1_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S131072 : Shape := ⟨1, ![131072]⟩
abbrev S131072x128 : Shape := ⟨2, ![131072, 128]⟩
abbrev S16777216 : Shape := ⟨1, ![16777216]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S131072, .f32⟩
  | .hbm, ⟨3, _⟩ => ⟨S4096x4096, .f32⟩
  | .hbm, ⟨4, _⟩ => ⟨S131072x128, .f32⟩
  | .hbm, ⟨5, _⟩ => ⟨S16777216, .f32⟩
  | .hbm, ⟨6, _⟩ => ⟨S4096x4096, .f32⟩
  | .hbm, ⟨7, _⟩ => ⟨S4096x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S131072_S131072x128_0 : S131072.BroadcastsInDim S131072x128 (![0] : Fin 1 → Fin S131072x128.rank)
  shapeCasts_S131072x128_S16777216 : S131072x128.ShapeCasts S16777216
  shapeCasts_S16777216_S4096x4096 : S16777216.ShapeCasts S4096x4096
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.WordWeightCall.lean ====
/-
  The weight-building call (the first of the two kernel calls), at any float instance and at any contents `V` of
  the core's buffers when the call is entered. Its grid has eight points; point `t` reads rows
  512·t … 512·t+511 of the sign array and of the [4096, 32] scale array and writes the same rows of the weight
  array. The body loads both blocks whole, computes one value from them (the payload `k0_pay1`) and stores it
  whole over the output block. Stated here: what the body leaves in the output block as a function of the two
  input blocks, the body's triple, the call's proof data and the body obligation at every point.
-/
import proofs.«154442_j46437186404373_2_alg».proof.Proof.Gen.Kernel.Launch
import proofs.«154442_j46437186404373_2_alg».proof.Proof.Gen.Kernel.Skeleton
import proofs.«154442_j46437186404373_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-- Block `t` of window `w`'s array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sign window's current buffer holds its block at every point, for any proof data over `V` whose body
    leaves that block in place. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The same for the scale window. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole [512, 4096] block and the whole [512, 32] block as rectangles: every access of the body is one of them. -/
abbrev rW : Rect S512x4096 := Rect.unit (s := S512x4096) ![0, 0] S512x4096.size inb_S512x4096_S512x4096_0_0
abbrev rS : Rect S512x32 := Rect.unit (s := S512x32) ![0, 0] S512x32.size inb_S512x32_S512x32_0_0

/-- What the body leaves in the weight block: its one store, whole, of the payload of the two loaded blocks. -/
def wout (x0 : Vec F S512x4096 .f32) (x1 : Vec F S512x32 .f32) : Vec F S512x4096 .bf16 :=
  View.canon [⟨rW, k0_pay1 (View.ld x0 rW) (View.ld x1 rS)⟩]

/-- One whole store covers the block. -/
theorem wcover (p0 : Vec F S512x4096 .bf16) (y : S512x4096.Idx) :
    ∃ pc ∈ ([⟨rW, p0⟩] : List (View.Piece (Elt F) S512x4096 .bf16)), y ∈ pc.1.set :=
  View.cover_of_tiled [⟨rW, p0⟩] S512x4096.size (by rfl) y

set_option maxHeartbeats 1000000 in
/-- The body on whole buffers: the inputs at contents `x0`, `x1`, the output at anything, runs to the inputs unchanged
    and the output at `wout x0 x1`. -/
theorem weight_body (c : Dev nD) (E : Set ℕ) (i : grid0.Coords) (arg1 : Memref sig .tc .vmem S512x4096 .f32) (harg1 : arg1.IsWhole) (arg2 : Memref sig .tc .vmem S512x32 .f32) (harg2 : arg2.IsWhole) (arg3 : Memref sig .tc .vmem S512x4096 .bf16) (harg3 : arg3.IsWhole)
    (x0 : Vec F S512x4096 .f32) (x1 : Vec F S512x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (wout x0 x1)) -∗ K ⟨⟩))
      ⊢ wp frame (wpE (defs₀ (F := F)) Variants.none c none) E (cc0__weight_kernel i arg1 harg1 arg2 harg2 arg3 harg3) K := by
  simp only [cc0__weight_kernel_eq_skeleton]; unfold cc0__weight_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (wcover _)

/-- The call's proof data on core `c`: the arrays as found; after the body at point `t` each input block in place and
    the output block at `wout` of them; the invariant is the scoped buffers the call does not stage and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => wout (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = wout (blk0 V c 0 t) (blk0 V c 1 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so `weight_body` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (weight_body c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the call, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordProductCall.lean ====
/-
  The matrix-product call (the second of the two kernel calls), at any float instance and at any contents `V` of
  the core's buffers when the call is entered. Its grid is 8 × 2 × 16, the last axis fastest: point
  t = 32·i + 16·j + k handles rows 1024·i … of the left operand, rows 2048·j … of the weight array and the k-th tile of
  256 along the contracted axis. A scratch block of [1024, 2048] carries the running sum from point to point: at
  k = 0 the body first stores zeros into it; at every point it adds this tile's product to it; at k = 15 it copies
  it into the output block, which is written back there and nowhere else. Stated here: the scratch's contents after
  each point (`acc`), the body's triple in each of the three cases, the call's proof data with an invariant that
  names the scratch's contents, and the body obligation at every point.
-/
import proofs.«154442_j46437186404373_2_alg».proof.Proof.Gen.Kernel.Launch
import proofs.«154442_j46437186404373_2_alg».proof.Proof.Gen.Kernel.Skeleton
import proofs.«154442_j46437186404373_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-- Block `t` of window `w`'s array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's current buffer holds its block at every point, for any proof data over `V` whose body leaves
    that block in place. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The same for the weight window. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The two conditions of the body, over the grid -/

/-- "this is the first tile of the contracted axis" (k = 0), as the body computes it from the coordinates. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 16 = 0 :=
  (by decide +kernel : ∀ t : Fin grid1.N, isFirst (grid1.coords t) ↔ t.val % 16 = 0)
/-- "this is the last tile" (k = 15). -/
abbrev isLast (i : grid1.Coords) : Prop := k1_cond2 i = 1#1
theorem isLast_iff : ∀ t : Fin cfg1.N, isLast (grid1.coords t) ↔ t.val % 16 = 15 :=
  (by decide +kernel : ∀ t : Fin grid1.N, isLast (grid1.coords t) ↔ t.val % 16 = 15)

/-- Away from the last tile the output window is idle and is not written back; at the last tile it is live. -/
theorem out_idle : ∀ t : Fin cfg1.N, ¬isLast (grid1.coords t) → cfg1.idle 2 (grid1.coords t) = true := by decide +kernel
theorem out_noflush : ∀ t : Fin cfg1.N, ¬isLast (grid1.coords t) → (cfg1.win 2).flush t = false := by decide +kernel
theorem out_live : ∀ t : Fin cfg1.N, isLast (grid1.coords t) → cfg1.idle 2 (grid1.coords t) = false := by decide +kernel

/-! ## The body's accesses: every one is a whole block -/

abbrev rX : Rect S1024x256 := Rect.unit (s := S1024x256) ![0, 0] S1024x256.size inb_S1024x256_S1024x256_0_0
abbrev rY : Rect S2048x256 := Rect.unit (s := S2048x256) ![0, 0] S2048x256.size inb_S2048x256_S2048x256_0_0
abbrev rO : Rect S1024x2048 := Rect.unit (s := S1024x2048) ![0, 0] S1024x2048.size inb_S1024x2048_S1024x2048_0_0
theorem off0 : (![0, 0] : Fin 2 → ℕ) = fun _ => 0 := by funext a; fin_cases a <;> rfl

/-- Every index of a [1024, 2048] block is inside the whole-block rectangle. -/
theorem whole_mem (y : S1024x2048.Idx) : y ∈ rO.set := View.mem_set_unit_zero off0 inb_S1024x2048_S1024x2048_0_0 y

/-- A list of stores whose last one is a whole-block store covers the block. -/
theorem cover1 (p0 : Vec F S1024x2048 .f32) (L : List (View.Piece (Elt F) S1024x2048 .f32)) (y : S1024x2048.Idx) :
    ∃ pc ∈ ((⟨rO, p0⟩ : View.Piece (Elt F) S1024x2048 .f32) :: L), y ∈ pc.1.set :=
  ⟨⟨rO, p0⟩, List.mem_cons_self, whole_mem y⟩

/-- The scratch block, a whole scoped buffer of the call's own. -/
abbrev scr : Memref sig .tc .vmem S1024x2048 .f32 := Memref.whole cc1_scratch0

/-! ## The body's triple, case by case

On whole buffers: the operands at contents `x0`, `x1`; the scratch at anything (first tile) or at `xs` (later
tiles); the output block untouched except at the last tile. The scratch ends at the payload `k1_pay2` of the two
operand blocks and of what the scratch held (zeros, `k1_pay1`, at the first tile). -/

set_option maxHeartbeats 1000000 in
theorem mm_first (c : Dev nD) (E : Set ℕ) (i : grid1.Coords) (arg3 : Memref sig .tc .vmem S1024x256 .f32) (harg3 : arg3.IsWhole) (arg4 : Memref sig .tc .vmem S2048x256 .bf16) (harg4 : arg4.IsWhole) (arg5 : Memref sig .tc .vmem S1024x2048 .f32) (harg5 : arg5.IsWhole) (arg6 : Memref sig .tc .vmem S1024x2048 .f32) (harg6 : arg6.IsWhole)
    (hc0 : isFirst i) (hc1 : ¬isLast i)
    (x0 : Vec F S1024x256 .f32) (x1 : Vec F S2048x256 .bf16) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1 ∗ owns (c : Thread nD τ) arg6 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d3, %f3, -, H3⟩, Hk⟩
  subst hf0 hf1
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact H3
  ipureintro
  rw [View.read_writes_eq_canon _ _ _ (cover1 _ _), View.canon_cons_unit_zero off0,
    View.readCov_unit_zero _ off0]
  simp only [View.readAt_eq_ld, View.ld_unit_zero (S := S1024x256) off0, View.ld_unit_zero (S := S2048x256) off0, View.ld_unit_zero (S := S1024x2048) off0]

set_option maxHeartbeats 1000000 in
theorem mm_mid (c : Dev nD) (E : Set ℕ) (i : grid1.Coords) (arg3 : Memref sig .tc .vmem S1024x256 .f32) (harg3 : arg3.IsWhole) (arg4 : Memref sig .tc .vmem S2048x256 .bf16) (harg4 : arg4.IsWhole) (arg5 : Memref sig .tc .vmem S1024x2048 .f32) (harg5 : arg5.IsWhole) (arg6 : Memref sig .tc .vmem S1024x2048 .f32) (harg6 : arg6.IsWhole)
    (hc0 : ¬isFirst i) (hc1 : ¬isLast i)
    (x0 : Vec F S1024x256 .f32) (x1 : Vec F S2048x256 .bf16) (xs : Vec F S1024x2048 .f32) (K : PUnit → sProp 𝕄) :
    iprop(owns (c : Thread nD τ) arg3 fullShare x0 ∗ owns (c : Thread nD τ) arg4 fullShare x1 ∗ owns (c : Thread nD τ) arg6 fullShare xs
        ∗ (iprop(owns (c : Thread nD τ) arg3 fullShare x0 ∗ owns (c : Thread nD τ) arg4 fullShare x1 ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f3, %hf3, H3⟩, Hk⟩
  subst hf0 hf1 hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact H3
  ipureintro
  rw [View.read_writes_eq_canon _ _ _ (cover1 _ _), View.canon_cons_unit_zero off0]
  simp only [View.readAt_eq_ld, View.ld_unit_zero (S := S1024x256) off0, View.ld_unit_zero (S := S2048x256) off0, View.ld_unit_zero (S := S1024x2048) off0]

set_option maxHeartbeats 1000000 in
theorem mm_last (c : Dev nD) (E : Set ℕ) (i : grid1.Coords) (arg3 : Memref sig .tc .vmem S1024x256 .f32) (harg3 : arg3.IsWhole) (arg4 : Memref sig .tc .vmem S2048x256 .bf16) (harg4 : arg4.IsWhole) (arg5 : Memref sig .tc .vmem S1024x2048 .f32) (harg5 : arg5.IsWhole) (arg6 : Memref sig .tc .vmem S1024x2048 .f32) (harg6 : arg6.IsWhole)
    (hc0 : ¬isFirst i) (hc1 : isLast i)
    (x0 : Vec F S1024x256 .f32) (x1 : Vec F S2048x256 .bf16) (xs : Vec F S1024x2048 .f32) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay2 x0 x1 xs) ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover1 _ _), View.canon_cons_unit_zero off0,
      View.readCov_unit_zero _ off0]
    simp only [View.readAt_eq_ld, View.ld_unit_zero (S := S1024x256) off0, View.ld_unit_zero (S := S2048x256) off0, View.ld_unit_zero (S := S1024x2048) off0]
  iexists _; isplitr
  swap; · iexact H3
  ipureintro
  rw [View.read_writes_eq_canon _ _ _ (cover1 _ _), View.canon_cons_unit_zero off0]
  simp only [View.readAt_eq_ld, View.ld_unit_zero (S := S1024x256) off0, View.ld_unit_zero (S := S2048x256) off0, View.ld_unit_zero (S := S1024x2048) off0]

/-! ## The running sum, point by point -/

/-- What the scratch block holds after the body at position `n`: at a first tile the step applied to zeros, otherwise
    the step applied to what the position before left. -/
def acc (c : Dev nD) : (n : ℕ) → n < cfg1.N → Vec F S1024x2048 .f32
  | 0, hn => k1_pay2 (blk1 V c 0 ⟨0, hn⟩) (blk1 V c 1 ⟨0, hn⟩) (k1_pay1 (F := F))
  | n + 1, hn =>
    if (n + 1) % 16 = 0 then k1_pay2 (blk1 V c 0 ⟨n + 1, hn⟩) (blk1 V c 1 ⟨n + 1, hn⟩) (k1_pay1 (F := F))
    else k1_pay2 (blk1 V c 0 ⟨n + 1, hn⟩) (blk1 V c 1 ⟨n + 1, hn⟩) (acc c n (Nat.lt_of_succ_lt hn))

theorem acc_first (c : Dev nD) (t : Fin cfg1.N) (h0 : t.val % 16 = 0) :
    acc V c t.val t.isLt = k1_pay2 (blk1 V c 0 t) (blk1 V c 1 t) (k1_pay1 (F := F)) := by
  obtain ⟨n, hn⟩ := t
  cases n with
  | zero => rfl
  | succ n => exact if_pos h0

theorem acc_next (c : Dev nD) (t : Fin cfg1.N) (h0 : ¬t.val % 16 = 0) :
    acc V c t.val t.isLt = k1_pay2 (blk1 V c 0 t) (blk1 V c 1 t) (acc V c (t.val - 1) (Nat.lt_of_le_of_lt (Nat.sub_le _ _) t.isLt)) := by
  obtain ⟨n, hn⟩ := t
  cases n with
  | zero => exact absurd (Nat.zero_mod _) h0
  | succ n => exact if_neg h0

/-! ## The invariant: the scoped buffers the call does not stage, the scratch among them at its named contents -/

/-- The other call's six staging buffers, each at some contents, and beside them the scratch as `S` says. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The class's invariant with the scratch as a memref owned at some contents. -/
theorem PhiA1_eq (c : Dev nD) :
    (Pipeline.ΦA spec1 c : sProp 𝕄) = iprop(restWith c iprop(∃ d, owns (c : Thread nD τ) scr fullShare d) ∗ (∃ r, prngReg c r)) := by
  unfold Pipeline.ΦA restWith; rw [scopedRest1_eq]; simp only [scr, owns_whole]; try rfl

/-- Before position `n`: at the start the class's invariant (the scratch at anything); afterwards the scratch at what
    the position before left, the generator register at some state. -/
def PhiS (c : Dev nD) : (n : ℕ) → n ≤ cfg1.N → sProp 𝕄
  | 0, _ => Pipeline.ΦA spec1 c
  | n + 1, hn => iprop(restWith c (owns (c : Thread nD τ) scr fullShare (acc V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scr fullShare (acc V c n hn)) ∗ (∃ r, prngReg c r)) := rfl

theorem PhiS_pos (c : Dev nD) (n : ℕ) (h : n ≤ cfg1.N) (hz : n ≠ 0) :
    PhiS V c n h = iprop(restWith c (owns (c : Thread nD τ) scr fullShare (acc V c (n - 1) (by omega))) ∗ (∃ r, prngReg c r)) := by
  cases n with
  | zero => exact absurd rfl hz
  | succ n => rfl

/-! ## The call's proof data -/

/-- On core `c`: the arrays as found; after the body at point `t` each operand block in place and the output block
    at the running sum (read only where the block is written back: the last tile); the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = acc V c t.val t.isLt := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The operand buffers hold their blocks; the position modulo 16 says which case the point is
    in; the invariant hands the body the scratch at what the position before left (at anything at the very first
    point) and takes it back at this position's running sum; away from the last tile the output buffer passes through
    untouched, at the last tile it ends at the running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1]
  have hN : t.val < 256 := lt_of_lt_of_eq t.isLt (show cfg1.N = 256 from N_1)
  by_cases h1 : t.val % 16 = 15
  · have h0 : ¬t.val % 16 = 0 := by omega
    have hz : t.val ≠ 0 := by omega
    rw [show (dat1 V c).leavesExact 2 t = owns (c : Thread nD τ) (st1_2 t) fullShare ((dat1 V c).after 2 t) from by
      unfold Dat.leavesExact; rw [out_live t ((isLast_iff t).mpr h1)], after1_2]
    rw [acc_next V c t h0, PhiS_castSucc V c t, PhiS_pos V c _ _ hz]
    unfold restWith
    iintro ⟨⟨⟨A0, A1, A2, A3, A4, A5, HS⟩, Hg⟩, Ho, ⟨%d0, H0⟩, ⟨%d1, H1⟩, ⟨%d2, H2⟩⟩
    iapply (mm_last c Set.univ (grid1.coords t) _ _ _ _ _ _ _ _ (fun h => h0 ((isFirst_iff t).mp h)) ((isLast_iff t).mpr h1) (blk1 V c 0 t) (blk1 V c 1 t) _ _)
    isplitl [H0]; · iexact H0
    isplitl [H1]; · iexact H1
    isplitl [H2]; · iexists _; iexact H2
    isplitl [HS]; · iexact HS
    iintro ⟨H0, H1, H2, HS⟩
    isplitl [A0 A1 A2 A3 A4 A5 HS Hg]
    · isplitr [Hg]
      · isplitl [A0]; · iexact A0
        isplitl [A1]; · iexact A1
        isplitl [A2]; · iexact A2
        isplitl [A3]; · iexact A3
        isplitl [A4]; · iexact A4
        isplitl [A5]; · iexact A5
        iexact HS
      iexact Hg
    isplitl [Ho]; · iexact Ho
    isplitl [H0]; · iexact H0
    isplitl [H1]; · iexact H1
    iexact H2
  · rw [Dat.leavesExact_idle (dat1 V c) 2 t (out_idle t (fun h => h1 ((isLast_iff t).mp h))) (out_noflush t (fun h => h1 ((isLast_iff t).mp h)))]
    by_cases h0 : t.val % 16 = 0
    · rw [acc_first V c t h0]
      by_cases hz : t.val = 0
      · rw [PhiS_castSucc V c t, PhiS_zero V c _ _ hz, PhiA1_eq]
        unfold restWith
        iintro ⟨⟨⟨A0, A1, A2, A3, A4, A5, HS⟩, Hg⟩, Ho, ⟨%d0, H0⟩, ⟨%d1, H1⟩, ⟨%d2, H2⟩⟩
        iapply (mm_first c Set.univ (grid1.coords t) _ _ _ _ _ _ _ _ ((isFirst_iff t).mpr h0) (fun h => h1 ((isLast_iff t).mp h)) (blk1 V c 0 t) (blk1 V c 1 t) _)
        isplitl [H0]; · iexact H0
        isplitl [H1]; · iexact H1
        isplitl [HS]; · iexact HS
        iintro ⟨H0, H1, HS⟩
        isplitl [A0 A1 A2 A3 A4 A5 HS Hg]
        · isplitr [Hg]
          · isplitl [A0]; · iexact A0
            isplitl [A1]; · iexact A1
            isplitl [A2]; · iexact A2
            isplitl [A3]; · iexact A3
            isplitl [A4]; · iexact A4
            isplitl [A5]; · iexact A5
            iexact HS
          iexact Hg
        isplitl [Ho]; · iexact Ho
        isplitl [H0]; · iexact H0
        isplitl [H1]; · iexact H1
        iexists _; iexact H2
      · rw [PhiS_castSucc V c t, PhiS_pos V c _ _ hz]
        unfold restWith
        iintro ⟨⟨⟨A0, A1, A2, A3, A4, A5, HS⟩, Hg⟩, Ho, ⟨%d0, H0⟩, ⟨%d1, H1⟩, ⟨%d2, H2⟩⟩
        iapply (mm_first c Set.univ (grid1.coords t) _ _ _ _ _ _ _ _ ((isFirst_iff t).mpr h0) (fun h => h1 ((isLast_iff t).mp h)) (blk1 V c 0 t) (blk1 V c 1 t) _)
        isplitl [H0]; · iexact H0
        isplitl [H1]; · iexact H1
        isplitl [HS]; · iexists _; iexact HS
        iintro ⟨H0, H1, HS⟩
        isplitl [A0 A1 A2 A3 A4 A5 HS Hg]
        · isplitr [Hg]
          · isplitl [A0]; · iexact A0
            isplitl [A1]; · iexact A1
            isplitl [A2]; · iexact A2
            isplitl [A3]; · iexact A3
            isplitl [A4]; · iexact A4
            isplitl [A5]; · iexact A5
            iexact HS
          iexact Hg
        isplitl [Ho]; · iexact Ho
        isplitl [H0]; · iexact H0
        isplitl [H1]; · iexact H1
        iexists _; iexact H2
    · have hz : t.val ≠ 0 := fun e => h0 (by rw [e])
      rw [acc_next V c t h0, PhiS_castSucc V c t, PhiS_pos V c _ _ hz]
      unfold restWith
      iintro ⟨⟨⟨A0, A1, A2, A3, A4, A5, HS⟩, Hg⟩, Ho, ⟨%d0, H0⟩, ⟨%d1, H1⟩, ⟨%d2, H2⟩⟩
      iapply (mm_mid c Set.univ (grid1.coords t) _ _ _ _ _ _ _ _ (fun h => h0 ((isFirst_iff t).mp h)) (fun h => h1 ((isLast_iff t).mp h)) (blk1 V c 0 t) (blk1 V c 1 t) _ _)
      isplitl [H0]; · iexact H0
      isplitl [H1]; · iexact H1
      isplitl [HS]; · iexact HS
      iintro ⟨H0, H1, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexists _; iexact H2

/-- The body obligation of the call, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold restWith
  iintro ⟨⟨A0, A1, A2, A3, A4, A5, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end Cert.Kernel.Hand

end
-- ==== Proof.WordRun.lean ====
/-
  The run of @main: a reshape of the scale vector, the weight-building call, a reshape of the left operand, the
  matrix-product call, a reshape of the result. The buffers' contents between the five segments are a fold from the
  launch memory: a host line's result by the line, a call's arrays at what its write-backs leave, every other buffer
  as it was. Each call is a segment record over its own proof data (the weight-building call with the class's
  invariant, the matrix-product call with the invariant that names its scratch); the run ends with every unscoped
  buffer read at the fold's last stage, from which the argument arrays read back to the launch memory.
-/
import proofs.«154442_j46437186404373_2_alg».proof.Proof.WordWeightCall
import proofs.«154442_j46437186404373_2_alg».proof.Proof.WordProductCall

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ)

/-! ## The buffers' contents at each segment boundary -/

/-- At launch. -/
abbrev W0 : Dev nD → Valuation τ sig (Elt F) := fun c b => m (c, b)
/-- After the scale vector's reshape (the weight-building call's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the weight-building call's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the left operand's reshape (the matrix-product call's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the matrix-product call's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the result's reshape: the end. -/
abbrev W5 : Dev nD → Valuation τ sig (Elt F) := fun c => StableHlo.after hostOps2 (W4 m c)

/-! ## A host line changes its own result buffer only -/

theorem keeps0 (W : Valuation τ sig (Elt F)) (b : Ref sig .tc) (h : b ≠ main_v0) :
    StableHlo.after (hostOps0 (F := F)) W (Proc.devRef .tc b) = W (Proc.devRef .tc b) :=
  StableHlo.after_of_forall_not_mem (b := Proc.devRef .tc b) _ _ (by
    intro op hop
    simp only [hostOps0, List.mem_cons, List.mem_nil_iff, or_false] at hop
    subst hop
    simp only [StableHlo.reshape_writes, Finset.mem_singleton]
    exact StableHlo.devRef_ne_of_ne h)
theorem keeps1 (W : Valuation τ sig (Elt F)) (b : Ref sig .tc) (h : b ≠ main_v2) :
    StableHlo.after (hostOps1 (F := F)) W (Proc.devRef .tc b) = W (Proc.devRef .tc b) :=
  StableHlo.after_of_forall_not_mem (b := Proc.devRef .tc b) _ _ (by
    intro op hop
    simp only [hostOps1, List.mem_cons, List.mem_nil_iff, or_false] at hop
    subst hop
    simp only [StableHlo.reshape_writes, Finset.mem_singleton]
    exact StableHlo.devRef_ne_of_ne h)
theorem keeps2 (W : Valuation τ sig (Elt F)) (b : Ref sig .tc) (h : b ≠ main_v4) :
    StableHlo.after (hostOps2 (F := F)) W (Proc.devRef .tc b) = W (Proc.devRef .tc b) :=
  StableHlo.after_of_forall_not_mem (b := Proc.devRef .tc b) _ _ (by
    intro op hop
    simp only [hostOps2, List.mem_cons, List.mem_nil_iff, or_false] at hop
    subst hop
    simp only [StableHlo.reshape_writes, Finset.mem_singleton]
    exact StableHlo.devRef_ne_of_ne h)

/-! ## The arguments end as launched: no host line writes one, and a call reads it through an input window or not at all -/

theorem W5_arg0 (c : Dev nD) : W5 m c (Proc.devRef .tc main_arg0) = m ((c : Thread nD τ).loc main_arg0) :=
  (keeps2 _ main_arg0 (by decide)).trans <| (W4_of_ne m c main_arg0 (by decide)).trans <| (keeps1 _ main_arg0 (by decide)).trans <|
    (W2_of_ne m c main_arg0 (by decide)).trans <| (keeps0 _ main_arg0 (by decide)).trans rfl
theorem W5_arg1 (c : Dev nD) : W5 m c (Proc.devRef .tc main_arg1) = m ((c : Thread nD τ).loc main_arg1) :=
  (keeps2 _ main_arg1 (by decide)).trans <| (W4_of_ne m c main_arg1 (by decide)).trans <| (keeps1 _ main_arg1 (by decide)).trans <|
    ((W2_arr m c 0).trans (((dat0 (E1 m) c).arrAt_in 0 rfl _).trans (A_eq0 (E1 m) c 0))).trans <| (keeps0 _ main_arg1 (by decide)).trans rfl
theorem W5_arg2 (c : Dev nD) : W5 m c (Proc.devRef .tc main_arg2) = m ((c : Thread nD τ).loc main_arg2) :=
  (keeps2 _ main_arg2 (by decide)).trans <| (W4_of_ne m c main_arg2 (by decide)).trans <| (keeps1 _ main_arg2 (by decide)).trans <|
    (W2_of_ne m c main_arg2 (by decide)).trans <| (keeps0 _ main_arg2 (by decide)).trans rfl

/-! ## The proof data family and what rides beside the buffers -/

abbrev padm : (p : Fin 2) → (pcfgs (F := F) p).Adm := fun p => (cfgs p).toPCfg_adm
/-- Each call's proof data at its own entry contents: a literal match on the call's number. -/
def pds : (p : Fin 2) → (c : Dev nD) → Dat τ (Elt F) Unit ℕ (UR sig nD τ) ℕ (Pipeline.pin (pcfgs (F := F)) padm p) c
  | ⟨0, _⟩ => fun c => dat0 (E1 m) c
  | ⟨1, _⟩ => fun c => dat1 (E3 m) c
abbrev vars₀ : Variants := Variants.none
abbrev noPairs : GSem nD τ sig → Finset Unit := fun _ => ∅
abbrev noLevel : GSem nD τ sig → Unit → ℕ := fun _ _ => 0
/-- Beside the buffers through every segment: the generator register at some state, and the core owing nothing. -/
abbrev rides (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars₀ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the end's contents, the generator
    register at some state. -/
abbrev Tend (c : Dev nD) : sProp 𝕄 := iprop(StableHlo.held (c : Thread nD τ) (Pipeline.ucRefs τ sig) (W5 m c) ∗ ∃ r, prngReg c r)

/-! ## The two calls as segments -/

set_option backward.isDefEq.respectTransparency.types false in
/-- The weight-building call: entered from every unscoped buffer at `W1`, left at `W2`. Its arrays are split out of
    the unscoped buffers and put back at the exit contents; the generator register goes into the invariant and comes
    out; nothing is owed; the kernel has no semaphore of its own. -/
def rg0 : Pipeline.RegionSeg (pcfgs (F := F)) padm (pds m) () defs₀ vars₀ noPairs noLevel 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevel 0 fun _ _ => rfl
  pre c := iprop(StableHlo.held (c : Thread nD τ) (Pipeline.ucRefs τ sig) (W1 m c) ∗ rides c)
  post c := iprop(StableHlo.held (c : Thread nD τ) (Pipeline.ucRefs τ sig) (W2 m c) ∗ rides c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) padm (pds m) launch0.win launch0.arr_whole c
      ((pds m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 0 c).Φ 0 = Pipeline.ΦA spec0 c from rfl]; unfold Pipeline.ΦA
    iintro ⟨Hp, -, Hr⟩
    isplitl [Hr]; · iexact Hr
    iexact Hp
  hout c := by
    rw [Pipeline.ownSems0_none, show (pds m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pds m) ((pds m 0 c).share_full fun _ => rfl)
      (E1 m c) (E2 m c) ((pds m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product call: entered from every unscoped buffer at `W3`, left at `W4`. As above, except that its
    invariant names the scratch's contents: it starts as the class's and gives the class's back at the end. -/
def rg1 : Pipeline.RegionSeg (pcfgs (F := F)) padm (pds m) () defs₀ vars₀ noPairs noLevel 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevel 1 fun _ _ => rfl
  pre c := iprop(StableHlo.held (c : Thread nD τ) (Pipeline.ucRefs τ sig) (W3 m c) ∗ rides c)
  post c := iprop(StableHlo.held (c : Thread nD τ) (Pipeline.ucRefs τ sig) (W4 m c) ∗ rides c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) padm (pds m) launch1.win launch1.arr_whole c
      ((pds m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pds m 1 c).Φ (Fin.last _) ⊢ Pipeline.ΦA spec1 c from hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pds m) ((pds m 1 c).share_full fun _ => rfl)
      (E3 m c) (E4 m c) ((pds m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev sgs : List (Pipeline.Seg (pcfgs (F := F)) padm (pds m) () defs₀ vars₀ noPairs noLevel) :=
  [ .host (hostSeg hostOps0 hostOps0_sub ops0_fresh (W0 m)),
    .region (rg0 m),
    .host (hostSeg hostOps1 hostOps1_sub ops1_fresh (W2 m)),
    .region (rg1 m),
    .host (hostSeg hostOps2 hostOps2_sub ops2_fresh (W4 m)) ]

theorem main_run (c : Dev nD) : main (F := F) c = Pipeline.Seg.run (sgs m) := (main_chain c).trans (by chain_rfl)

set_option backward.isDefEq.respectTransparency.types false in
/-- THE RUN. From any memory with zero counters every weakly fair execution of @main terminates, nothing faulting,
    and every final state has every unscoped buffer at the fold's end `W5`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) padm (pds m) () cellOf_inj emb₁ defs₀ vars₀ noPairs noLevel m ρ main (sgs m)
    (fun c Q => by rw [main_run m c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rides c)) (Tₙ := Tend m)
    (hch := ⟨fun _ => .rfl, fun _ => .rfl, fun _ => .rfl, fun _ => .rfl, fun _ => .rfl, fun c =>
      show (iprop(StableHlo.held (c : Thread nD τ) (Pipeline.ucRefs τ sig) (W5 m c) ∗ rides c) : sProp 𝕄)
          ⊢ iprop(Tend m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_arg0 m c),
     (h c _ (mem_uc main_arg1 (by decide))).trans (W5_arg1 m c),
     (h c _ (mem_uc main_arg2 (by decide))).trans (W5_arg2 m c)⟩) (run_main m ρ)

end Cert.Kernel.Hand

end
-- ==== Proof.IdealWeightCall.lean ====
/-
  The weight-building call (the first of the two kernel calls), at any float instance and at any contents `V` of
  the core's buffers when the call is entered. Its grid has eight points; point `t` reads rows
  512·t … 512·t+511 of the sign array and of the [4096, 32] scale array and writes the same rows of the weight
  array. The body loads both blocks whole, computes one value from them (the payload `k0_pay1`) and stores it
  whole over the output block. Stated here: what the body leaves in the output block as a function of the two
  input blocks, the body's triple, the call's proof data and the body obligation at every point.
-/
import proofs.«154442_j46437186404373_2_alg».proof.Proof.Gen.KernelIdeal.Launch
import proofs.«154442_j46437186404373_2_alg».proof.Proof.Gen.KernelIdeal.Skeleton
import proofs.«154442_j46437186404373_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sign window's current buffer holds its block at every point, for any proof data over `V` whose body
    leaves that block in place. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The same for the scale window. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole [512, 4096] block and the whole [512, 32] block as rectangles: every access of the body is one of them. -/
abbrev rW : Rect S512x4096 := Rect.unit (s := S512x4096) ![0, 0] S512x4096.size inb_S512x4096_S512x4096_0_0
abbrev rS : Rect S512x32 := Rect.unit (s := S512x32) ![0, 0] S512x32.size inb_S512x32_S512x32_0_0

/-- What the body leaves in the weight block: its one store, whole, of the payload of the two loaded blocks. -/
def wout (x0 : Vec F S512x4096 .f32) (x1 : Vec F S512x32 .f32) : Vec F S512x4096 .bf16 :=
  View.canon [⟨rW, k0_pay1 (View.ld x0 rW) (View.ld x1 rS)⟩]

/-- One whole store covers the block. -/
theorem wcover (p0 : Vec F S512x4096 .bf16) (y : S512x4096.Idx) :
    ∃ pc ∈ ([⟨rW, p0⟩] : List (View.Piece (Elt F) S512x4096 .bf16)), y ∈ pc.1.set :=
  View.cover_of_tiled [⟨rW, p0⟩] S512x4096.size (by rfl) y

set_option maxHeartbeats 1000000 in
/-- The body on whole buffers: the inputs at contents `x0`, `x1`, the output at anything, runs to the inputs unchanged
    and the output at `wout x0 x1`. -/
theorem weight_body (c : Dev nD) (E : Set ℕ) (i : grid0.Coords) (arg1 : Memref sig .tc .vmem S512x4096 .f32) (harg1 : arg1.IsWhole) (arg2 : Memref sig .tc .vmem S512x32 .f32) (harg2 : arg2.IsWhole) (arg3 : Memref sig .tc .vmem S512x4096 .bf16) (harg3 : arg3.IsWhole)
    (x0 : Vec F S512x4096 .f32) (x1 : Vec F S512x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (wout x0 x1)) -∗ K ⟨⟩))
      ⊢ wp frame (wpE (defs₀ (F := F)) Variants.none c none) E (cc0__weight_kernel i arg1 harg1 arg2 harg2 arg3 harg3) K := by
  simp only [cc0__weight_kernel_eq_skeleton]; unfold cc0__weight_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (wcover _)

/-- The call's proof data on core `c`: the arrays as found; after the body at point `t` each input block in place and
    the output block at `wout` of them; the invariant is the scoped buffers the call does not stage and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => wout (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = wout (blk0 V c 0 t) (blk0 V c 1 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so `weight_body` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (weight_body c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the call, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealProductCall.lean ====
/-
  The matrix-product call (the second of the two kernel calls), at any float instance and at any contents `V` of
  the core's buffers when the call is entered. Its grid is 8 × 2 × 16, the last axis fastest: point
  t = 32·i + 16·j + k handles rows 1024·i … of the left operand, rows 2048·j … of the weight array and the k-th tile of
  256 along the contracted axis. A scratch block of [1024, 2048] carries the running sum from point to point: at
  k = 0 the body first stores zeros into it; at every point it adds this tile's product to it; at k = 15 it copies
  it into the output block, which is written back there and nowhere else. Stated here: the scratch's contents after
  each point (`acc`), the body's triple in each of the three cases, the call's proof data with an invariant that
  names the scratch's contents, and the body obligation at every point.
-/
import proofs.«154442_j46437186404373_2_alg».proof.Proof.Gen.KernelIdeal.Launch
import proofs.«154442_j46437186404373_2_alg».proof.Proof.Gen.KernelIdeal.Skeleton
import proofs.«154442_j46437186404373_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's current buffer holds its block at every point, for any proof data over `V` whose body leaves
    that block in place. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The same for the weight window. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The two conditions of the body, over the grid -/

/-- "this is the first tile of the contracted axis" (k = 0), as the body computes it from the coordinates. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 16 = 0 :=
  (by decide +kernel : ∀ t : Fin grid1.N, isFirst (grid1.coords t) ↔ t.val % 16 = 0)
/-- "this is the last tile" (k = 15). -/
abbrev isLast (i : grid1.Coords) : Prop := k1_cond2 i = 1#1
theorem isLast_iff : ∀ t : Fin cfg1.N, isLast (grid1.coords t) ↔ t.val % 16 = 15 :=
  (by decide +kernel : ∀ t : Fin grid1.N, isLast (grid1.coords t) ↔ t.val % 16 = 15)

/-- Away from the last tile the output window is idle and is not written back; at the last tile it is live. -/
theorem out_idle : ∀ t : Fin cfg1.N, ¬isLast (grid1.coords t) → cfg1.idle 2 (grid1.coords t) = true := by decide +kernel
theorem out_noflush : ∀ t : Fin cfg1.N, ¬isLast (grid1.coords t) → (cfg1.win 2).flush t = false := by decide +kernel
theorem out_live : ∀ t : Fin cfg1.N, isLast (grid1.coords t) → cfg1.idle 2 (grid1.coords t) = false := by decide +kernel

/-! ## The body's accesses: every one is a whole block -/

abbrev rX : Rect S1024x256 := Rect.unit (s := S1024x256) ![0, 0] S1024x256.size inb_S1024x256_S1024x256_0_0
abbrev rY : Rect S2048x256 := Rect.unit (s := S2048x256) ![0, 0] S2048x256.size inb_S2048x256_S2048x256_0_0
abbrev rO : Rect S1024x2048 := Rect.unit (s := S1024x2048) ![0, 0] S1024x2048.size inb_S1024x2048_S1024x2048_0_0
theorem off0 : (![0, 0] : Fin 2 → ℕ) = fun _ => 0 := by funext a; fin_cases a <;> rfl

/-- Every index of a [1024, 2048] block is inside the whole-block rectangle. -/
theorem whole_mem (y : S1024x2048.Idx) : y ∈ rO.set := View.mem_set_unit_zero off0 inb_S1024x2048_S1024x2048_0_0 y

/-- A list of stores whose last one is a whole-block store covers the block. -/
theorem cover1 (p0 : Vec F S1024x2048 .f32) (L : List (View.Piece (Elt F) S1024x2048 .f32)) (y : S1024x2048.Idx) :
    ∃ pc ∈ ((⟨rO, p0⟩ : View.Piece (Elt F) S1024x2048 .f32) :: L), y ∈ pc.1.set :=
  ⟨⟨rO, p0⟩, List.mem_cons_self, whole_mem y⟩

/-- The scratch block, a whole scoped buffer of the call's own. -/
abbrev scr : Memref sig .tc .vmem S1024x2048 .f32 := Memref.whole cc1_scratch0

/-! ## The body's triple, case by case

On whole buffers: the operands at contents `x0`, `x1`; the scratch at anything (first tile) or at `xs` (later
tiles); the output block untouched except at the last tile. The scratch ends at the payload `k1_pay2` of the two
operand blocks and of what the scratch held (zeros, `k1_pay1`, at the first tile). -/

set_option maxHeartbeats 1000000 in
theorem mm_first (c : Dev nD) (E : Set ℕ) (i : grid1.Coords) (arg3 : Memref sig .tc .vmem S1024x256 .f32) (harg3 : arg3.IsWhole) (arg4 : Memref sig .tc .vmem S2048x256 .bf16) (harg4 : arg4.IsWhole) (arg5 : Memref sig .tc .vmem S1024x2048 .f32) (harg5 : arg5.IsWhole) (arg6 : Memref sig .tc .vmem S1024x2048 .f32) (harg6 : arg6.IsWhole)
    (hc0 : isFirst i) (hc1 : ¬isLast i)
    (x0 : Vec F S1024x256 .f32) (x1 : Vec F S2048x256 .bf16) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1 ∗ owns (c : Thread nD τ) arg6 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d3, %f3, -, H3⟩, Hk⟩
  subst hf0 hf1
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact H3
  ipureintro
  rw [View.read_writes_eq_canon _ _ _ (cover1 _ _), View.canon_cons_unit_zero off0,
    View.readCov_unit_zero _ off0]
  simp only [View.readAt_eq_ld, View.ld_unit_zero (S := S1024x256) off0, View.ld_unit_zero (S := S2048x256) off0, View.ld_unit_zero (S := S1024x2048) off0]

set_option maxHeartbeats 1000000 in
theorem mm_mid (c : Dev nD) (E : Set ℕ) (i : grid1.Coords) (arg3 : Memref sig .tc .vmem S1024x256 .f32) (harg3 : arg3.IsWhole) (arg4 : Memref sig .tc .vmem S2048x256 .bf16) (harg4 : arg4.IsWhole) (arg5 : Memref sig .tc .vmem S1024x2048 .f32) (harg5 : arg5.IsWhole) (arg6 : Memref sig .tc .vmem S1024x2048 .f32) (harg6 : arg6.IsWhole)
    (hc0 : ¬isFirst i) (hc1 : ¬isLast i)
    (x0 : Vec F S1024x256 .f32) (x1 : Vec F S2048x256 .bf16) (xs : Vec F S1024x2048 .f32) (K : PUnit → sProp 𝕄) :
    iprop(owns (c : Thread nD τ) arg3 fullShare x0 ∗ owns (c : Thread nD τ) arg4 fullShare x1 ∗ owns (c : Thread nD τ) arg6 fullShare xs
        ∗ (iprop(owns (c : Thread nD τ) arg3 fullShare x0 ∗ owns (c : Thread nD τ) arg4 fullShare x1 ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f3, %hf3, H3⟩, Hk⟩
  subst hf0 hf1 hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact H3
  ipureintro
  rw [View.read_writes_eq_canon _ _ _ (cover1 _ _), View.canon_cons_unit_zero off0]
  simp only [View.readAt_eq_ld, View.ld_unit_zero (S := S1024x256) off0, View.ld_unit_zero (S := S2048x256) off0, View.ld_unit_zero (S := S1024x2048) off0]

set_option maxHeartbeats 1000000 in
theorem mm_last (c : Dev nD) (E : Set ℕ) (i : grid1.Coords) (arg3 : Memref sig .tc .vmem S1024x256 .f32) (harg3 : arg3.IsWhole) (arg4 : Memref sig .tc .vmem S2048x256 .bf16) (harg4 : arg4.IsWhole) (arg5 : Memref sig .tc .vmem S1024x2048 .f32) (harg5 : arg5.IsWhole) (arg6 : Memref sig .tc .vmem S1024x2048 .f32) (harg6 : arg6.IsWhole)
    (hc0 : ¬isFirst i) (hc1 : isLast i)
    (x0 : Vec F S1024x256 .f32) (x1 : Vec F S2048x256 .bf16) (xs : Vec F S1024x2048 .f32) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay2 x0 x1 xs) ∗ owns (c : Thread nD τ) arg6 fullShare (k1_pay2 x0 x1 xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover1 _ _), View.canon_cons_unit_zero off0,
      View.readCov_unit_zero _ off0]
    simp only [View.readAt_eq_ld, View.ld_unit_zero (S := S1024x256) off0, View.ld_unit_zero (S := S2048x256) off0, View.ld_unit_zero (S := S1024x2048) off0]
  iexists _; isplitr
  swap; · iexact H3
  ipureintro
  rw [View.read_writes_eq_canon _ _ _ (cover1 _ _), View.canon_cons_unit_zero off0]
  simp only [View.readAt_eq_ld, View.ld_unit_zero (S := S1024x256) off0, View.ld_unit_zero (S := S2048x256) off0, View.ld_unit_zero (S := S1024x2048) off0]

/-! ## The running sum, point by point -/

/-- What the scratch block holds after the body at position `n`: at a first tile the step applied to zeros, otherwise
    the step applied to what the position before left. -/
def acc (c : Dev nD) : (n : ℕ) → n < cfg1.N → Vec F S1024x2048 .f32
  | 0, hn => k1_pay2 (blk1 V c 0 ⟨0, hn⟩) (blk1 V c 1 ⟨0, hn⟩) (k1_pay1 (F := F))
  | n + 1, hn =>
    if (n + 1) % 16 = 0 then k1_pay2 (blk1 V c 0 ⟨n + 1, hn⟩) (blk1 V c 1 ⟨n + 1, hn⟩) (k1_pay1 (F := F))
    else k1_pay2 (blk1 V c 0 ⟨n + 1, hn⟩) (blk1 V c 1 ⟨n + 1, hn⟩) (acc c n (Nat.lt_of_succ_lt hn))

theorem acc_first (c : Dev nD) (t : Fin cfg1.N) (h0 : t.val % 16 = 0) :
    acc V c t.val t.isLt = k1_pay2 (blk1 V c 0 t) (blk1 V c 1 t) (k1_pay1 (F := F)) := by
  obtain ⟨n, hn⟩ := t
  cases n with
  | zero => rfl
  | succ n => exact if_pos h0

theorem acc_next (c : Dev nD) (t : Fin cfg1.N) (h0 : ¬t.val % 16 = 0) :
    acc V c t.val t.isLt = k1_pay2 (blk1 V c 0 t) (blk1 V c 1 t) (acc V c (t.val - 1) (Nat.lt_of_le_of_lt (Nat.sub_le _ _) t.isLt)) := by
  obtain ⟨n, hn⟩ := t
  cases n with
  | zero => exact absurd (Nat.zero_mod _) h0
  | succ n => exact if_neg h0

/-! ## The invariant: the scoped buffers the call does not stage, the scratch among them at its named contents -/

/-- The other call's six staging buffers, each at some contents, and beside them the scratch as `S` says. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The class's invariant with the scratch as a memref owned at some contents. -/
theorem PhiA1_eq (c : Dev nD) :
    (Pipeline.ΦA spec1 c : sProp 𝕄) = iprop(restWith c iprop(∃ d, owns (c : Thread nD τ) scr fullShare d) ∗ (∃ r, prngReg c r)) := by
  unfold Pipeline.ΦA restWith; rw [scopedRest1_eq]; simp only [scr, owns_whole]; try rfl

/-- Before position `n`: at the start the class's invariant (the scratch at anything); afterwards the scratch at what
    the position before left, the generator register at some state. -/
def PhiS (c : Dev nD) : (n : ℕ) → n ≤ cfg1.N → sProp 𝕄
  | 0, _ => Pipeline.ΦA spec1 c
  | n + 1, hn => iprop(restWith c (owns (c : Thread nD τ) scr fullShare (acc V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scr fullShare (acc V c n hn)) ∗ (∃ r, prngReg c r)) := rfl

theorem PhiS_pos (c : Dev nD) (n : ℕ) (h : n ≤ cfg1.N) (hz : n ≠ 0) :
    PhiS V c n h = iprop(restWith c (owns (c : Thread nD τ) scr fullShare (acc V c (n - 1) (by omega))) ∗ (∃ r, prngReg c r)) := by
  cases n with
  | zero => exact absurd rfl hz
  | succ n => rfl

/-! ## The call's proof data -/

/-- On core `c`: the arrays as found; after the body at point `t` each operand block in place and the output block
    at the running sum (read only where the block is written back: the last tile); the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = acc V c t.val t.isLt := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The operand buffers hold their blocks; the position modulo 16 says which case the point is
    in; the invariant hands the body the scratch at what the position before left (at anything at the very first
    point) and takes it back at this position's running sum; away from the last tile the output buffer passes through
    untouched, at the last tile it ends at the running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1]
  have hN : t.val < 256 := lt_of_lt_of_eq t.isLt (show cfg1.N = 256 from N_1)
  by_cases h1 : t.val % 16 = 15
  · have h0 : ¬t.val % 16 = 0 := by omega
    have hz : t.val ≠ 0 := by omega
    rw [show (dat1 V c).leavesExact 2 t = owns (c : Thread nD τ) (st1_2 t) fullShare ((dat1 V c).after 2 t) from by
      unfold Dat.leavesExact; rw [out_live t ((isLast_iff t).mpr h1)], after1_2]
    rw [acc_next V c t h0, PhiS_castSucc V c t, PhiS_pos V c _ _ hz]
    unfold restWith
    iintro ⟨⟨⟨A0, A1, A2, A3, A4, A5, HS⟩, Hg⟩, Ho, ⟨%d0, H0⟩, ⟨%d1, H1⟩, ⟨%d2, H2⟩⟩
    iapply (mm_last c Set.univ (grid1.coords t) _ _ _ _ _ _ _ _ (fun h => h0 ((isFirst_iff t).mp h)) ((isLast_iff t).mpr h1) (blk1 V c 0 t) (blk1 V c 1 t) _ _)
    isplitl [H0]; · iexact H0
    isplitl [H1]; · iexact H1
    isplitl [H2]; · iexists _; iexact H2
    isplitl [HS]; · iexact HS
    iintro ⟨H0, H1, H2, HS⟩
    isplitl [A0 A1 A2 A3 A4 A5 HS Hg]
    · isplitr [Hg]
      · isplitl [A0]; · iexact A0
        isplitl [A1]; · iexact A1
        isplitl [A2]; · iexact A2
        isplitl [A3]; · iexact A3
        isplitl [A4]; · iexact A4
        isplitl [A5]; · iexact A5
        iexact HS
      iexact Hg
    isplitl [Ho]; · iexact Ho
    isplitl [H0]; · iexact H0
    isplitl [H1]; · iexact H1
    iexact H2
  · rw [Dat.leavesExact_idle (dat1 V c) 2 t (out_idle t (fun h => h1 ((isLast_iff t).mp h))) (out_noflush t (fun h => h1 ((isLast_iff t).mp h)))]
    by_cases h0 : t.val % 16 = 0
    · rw [acc_first V c t h0]
      by_cases hz : t.val = 0
      · rw [PhiS_castSucc V c t, PhiS_zero V c _ _ hz, PhiA1_eq]
        unfold restWith
        iintro ⟨⟨⟨A0, A1, A2, A3, A4, A5, HS⟩, Hg⟩, Ho, ⟨%d0, H0⟩, ⟨%d1, H1⟩, ⟨%d2, H2⟩⟩
        iapply (mm_first c Set.univ (grid1.coords t) _ _ _ _ _ _ _ _ ((isFirst_iff t).mpr h0) (fun h => h1 ((isLast_iff t).mp h)) (blk1 V c 0 t) (blk1 V c 1 t) _)
        isplitl [H0]; · iexact H0
        isplitl [H1]; · iexact H1
        isplitl [HS]; · iexact HS
        iintro ⟨H0, H1, HS⟩
        isplitl [A0 A1 A2 A3 A4 A5 HS Hg]
        · isplitr [Hg]
          · isplitl [A0]; · iexact A0
            isplitl [A1]; · iexact A1
            isplitl [A2]; · iexact A2
            isplitl [A3]; · iexact A3
            isplitl [A4]; · iexact A4
            isplitl [A5]; · iexact A5
            iexact HS
          iexact Hg
        isplitl [Ho]; · iexact Ho
        isplitl [H0]; · iexact H0
        isplitl [H1]; · iexact H1
        iexists _; iexact H2
      · rw [PhiS_castSucc V c t, PhiS_pos V c _ _ hz]
        unfold restWith
        iintro ⟨⟨⟨A0, A1, A2, A3, A4, A5, HS⟩, Hg⟩, Ho, ⟨%d0, H0⟩, ⟨%d1, H1⟩, ⟨%d2, H2⟩⟩
        iapply (mm_first c Set.univ (grid1.coords t) _ _ _ _ _ _ _ _ ((isFirst_iff t).mpr h0) (fun h => h1 ((isLast_iff t).mp h)) (blk1 V c 0 t) (blk1 V c 1 t) _)
        isplitl [H0]; · iexact H0
        isplitl [H1]; · iexact H1
        isplitl [HS]; · iexists _; iexact HS
        iintro ⟨H0, H1, HS⟩
        isplitl [A0 A1 A2 A3 A4 A5 HS Hg]
        · isplitr [Hg]
          · isplitl [A0]; · iexact A0
            isplitl [A1]; · iexact A1
            isplitl [A2]; · iexact A2
            isplitl [A3]; · iexact A3
            isplitl [A4]; · iexact A4
            isplitl [A5]; · iexact A5
            iexact HS
          iexact Hg
        isplitl [Ho]; · iexact Ho
        isplitl [H0]; · iexact H0
        isplitl [H1]; · iexact H1
        iexists _; iexact H2
    · have hz : t.val ≠ 0 := fun e => h0 (by rw [e])
      rw [acc_next V c t h0, PhiS_castSucc V c t, PhiS_pos V c _ _ hz]
      unfold restWith
      iintro ⟨⟨⟨A0, A1, A2, A3, A4, A5, HS⟩, Hg⟩, Ho, ⟨%d0, H0⟩, ⟨%d1, H1⟩, ⟨%d2, H2⟩⟩
      iapply (mm_mid c Set.univ (grid1.coords t) _ _ _ _ _ _ _ _ (fun h => h0 ((isFirst_iff t).mp h)) (fun h => h1 ((isLast_iff t).mp h)) (blk1 V c 0 t) (blk1 V c 1 t) _ _)
      isplitl [H0]; · iexact H0
      isplitl [H1]; · iexact H1
      isplitl [HS]; · iexact HS
      iintro ⟨H0, H1, HS⟩
      isplitl [A0 A1 A2 A3 A4 A5 HS Hg]
      · isplitr [Hg]
        · isplitl [A0]; · iexact A0
          isplitl [A1]; · iexact A1
          isplitl [A2]; · iexact A2
          isplitl [A3]; · iexact A3
          isplitl [A4]; · iexact A4
          isplitl [A5]; · iexact A5
          iexact HS
        iexact Hg
      isplitl [Ho]; · iexact Ho
      isplitl [H0]; · iexact H0
      isplitl [H1]; · iexact H1
      iexists _; iexact H2

/-- The body obligation of the call, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS V c (Fin.last cfg1.N).val (Nat.le_of_lt_succ (Fin.last cfg1.N).isLt) from rfl, PhiS_pos V c _ _ ht, PhiA1_eq]
  unfold restWith
  iintro ⟨⟨A0, A1, A2, A3, A4, A5, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexists _; iexact HS
  iexact Hg

end Cert.KernelIdeal.Hand

end
-- ==== Proof.IdealRun.lean ====
/-
  The run of @main: a reshape of the scale vector, the weight-building call, a reshape of the left operand, the
  matrix-product call, a reshape of the result. The buffers' contents between the five segments are a fold from the
  launch memory: a host line's result by the line, a call's arrays at what its write-backs leave, every other buffer
  as it was. Each call is a segment record over its own proof data (the weight-building call with the class's
  invariant, the matrix-product call with the invariant that names its scratch); the run ends with every unscoped
  buffer read at the fold's last stage, from which the argument arrays read back to the launch memory.
-/
import proofs.«154442_j46437186404373_2_alg».proof.Proof.IdealWeightCall
import proofs.«154442_j46437186404373_2_alg».proof.Proof.IdealProductCall

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- At launch. -/
abbrev W0 : Dev nD → Valuation τ sig (Elt F) := fun c b => m (c, b)
/-- After the scale vector's reshape (the weight-building call's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the weight-building call's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the left operand's reshape (the matrix-product call's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the matrix-product call's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the result's reshape: the end. -/
abbrev W5 : Dev nD → Valuation τ sig (Elt F) := fun c => StableHlo.after hostOps2 (W4 m c)

/-! ## A host line changes its own result buffer only -/

theorem keeps0 (W : Valuation τ sig (Elt F)) (b : Ref sig .tc) (h : b ≠ main_v0) :
    StableHlo.after (hostOps0 (F := F)) W (Proc.devRef .tc b) = W (Proc.devRef .tc b) :=
  StableHlo.after_of_forall_not_mem (b := Proc.devRef .tc b) _ _ (by
    intro op hop
    simp only [hostOps0, List.mem_cons, List.mem_nil_iff, or_false] at hop
    subst hop
    simp only [StableHlo.reshape_writes, Finset.mem_singleton]
    exact StableHlo.devRef_ne_of_ne h)
theorem keeps1 (W : Valuation τ sig (Elt F)) (b : Ref sig .tc) (h : b ≠ main_v2) :
    StableHlo.after (hostOps1 (F := F)) W (Proc.devRef .tc b) = W (Proc.devRef .tc b) :=
  StableHlo.after_of_forall_not_mem (b := Proc.devRef .tc b) _ _ (by
    intro op hop
    simp only [hostOps1, List.mem_cons, List.mem_nil_iff, or_false] at hop
    subst hop
    simp only [StableHlo.reshape_writes, Finset.mem_singleton]
    exact StableHlo.devRef_ne_of_ne h)
theorem keeps2 (W : Valuation τ sig (Elt F)) (b : Ref sig .tc) (h : b ≠ main_v4) :
    StableHlo.after (hostOps2 (F := F)) W (Proc.devRef .tc b) = W (Proc.devRef .tc b) :=
  StableHlo.after_of_forall_not_mem (b := Proc.devRef .tc b) _ _ (by
    intro op hop
    simp only [hostOps2, List.mem_cons, List.mem_nil_iff, or_false] at hop
    subst hop
    simp only [StableHlo.reshape_writes, Finset.mem_singleton]
    exact StableHlo.devRef_ne_of_ne h)

/-! ## The arguments end as launched: no host line writes one, and a call reads it through an input window or not at all -/

theorem W5_arg0 (c : Dev nD) : W5 m c (Proc.devRef .tc main_arg0) = m ((c : Thread nD τ).loc main_arg0) :=
  (keeps2 _ main_arg0 (by decide)).trans <| (W4_of_ne m c main_arg0 (by decide)).trans <| (keeps1 _ main_arg0 (by decide)).trans <|
    (W2_of_ne m c main_arg0 (by decide)).trans <| (keeps0 _ main_arg0 (by decide)).trans rfl
theorem W5_arg1 (c : Dev nD) : W5 m c (Proc.devRef .tc main_arg1) = m ((c : Thread nD τ).loc main_arg1) :=
  (keeps2 _ main_arg1 (by decide)).trans <| (W4_of_ne m c main_arg1 (by decide)).trans <| (keeps1 _ main_arg1 (by decide)).trans <|
    ((W2_arr m c 0).trans (((dat0 (E1 m) c).arrAt_in 0 rfl _).trans (A_eq0 (E1 m) c 0))).trans <| (keeps0 _ main_arg1 (by decide)).trans rfl
theorem W5_arg2 (c : Dev nD) : W5 m c (Proc.devRef .tc main_arg2) = m ((c : Thread nD τ).loc main_arg2) :=
  (keeps2 _ main_arg2 (by decide)).trans <| (W4_of_ne m c main_arg2 (by decide)).trans <| (keeps1 _ main_arg2 (by decide)).trans <|
    (W2_of_ne m c main_arg2 (by decide)).trans <| (keeps0 _ main_arg2 (by decide)).trans rfl

/-! ## The proof data family and what rides beside the buffers -/

abbrev padm : (p : Fin 2) → (pcfgs (F := F) p).Adm := fun p => (cfgs p).toPCfg_adm
/-- Each call's proof data at its own entry contents: a literal match on the call's number. -/
def pds : (p : Fin 2) → (c : Dev nD) → Dat τ (Elt F) Unit ℕ (UR sig nD τ) ℕ (Pipeline.pin (pcfgs (F := F)) padm p) c
  | ⟨0, _⟩ => fun c => dat0 (E1 m) c
  | ⟨1, _⟩ => fun c => dat1 (E3 m) c
abbrev vars₀ : Variants := Variants.none
abbrev noPairs : GSem nD τ sig → Finset Unit := fun _ => ∅
abbrev noLevel : GSem nD τ sig → Unit → ℕ := fun _ _ => 0
/-- Beside the buffers through every segment: the generator register at some state, and the core owing nothing. -/
abbrev rides (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars₀ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the end's contents, the generator
    register at some state. -/
abbrev Tend (c : Dev nD) : sProp 𝕄 := iprop(StableHlo.held (c : Thread nD τ) (Pipeline.ucRefs τ sig) (W5 m c) ∗ ∃ r, prngReg c r)

/-! ## The two calls as segments -/

set_option backward.isDefEq.respectTransparency.types false in
/-- The weight-building call: entered from every unscoped buffer at `W1`, left at `W2`. Its arrays are split out of
    the unscoped buffers and put back at the exit contents; the generator register goes into the invariant and comes
    out; nothing is owed; the kernel has no semaphore of its own. -/
def rg0 : Pipeline.RegionSeg (pcfgs (F := F)) padm (pds m) () defs₀ vars₀ noPairs noLevel 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevel 0 fun _ _ => rfl
  pre c := iprop(StableHlo.held (c : Thread nD τ) (Pipeline.ucRefs τ sig) (W1 m c) ∗ rides c)
  post c := iprop(StableHlo.held (c : Thread nD τ) (Pipeline.ucRefs τ sig) (W2 m c) ∗ rides c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) padm (pds m) launch0.win launch0.arr_whole c
      ((pds m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 0 c).Φ 0 = Pipeline.ΦA spec0 c from rfl]; unfold Pipeline.ΦA
    iintro ⟨Hp, -, Hr⟩
    isplitl [Hr]; · iexact Hr
    iexact Hp
  hout c := by
    rw [Pipeline.ownSems0_none, show (pds m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pds m) ((pds m 0 c).share_full fun _ => rfl)
      (E1 m c) (E2 m c) ((pds m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product call: entered from every unscoped buffer at `W3`, left at `W4`. As above, except that its
    invariant names the scratch's contents: it starts as the class's and gives the class's back at the end. -/
def rg1 : Pipeline.RegionSeg (pcfgs (F := F)) padm (pds m) () defs₀ vars₀ noPairs noLevel 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevel 1 fun _ _ => rfl
  pre c := iprop(StableHlo.held (c : Thread nD τ) (Pipeline.ucRefs τ sig) (W3 m c) ∗ rides c)
  post c := iprop(StableHlo.held (c : Thread nD τ) (Pipeline.ucRefs τ sig) (W4 m c) ∗ rides c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) padm (pds m) launch1.win launch1.arr_whole c
      ((pds m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pds m 1 c).Φ (Fin.last _) ⊢ Pipeline.ΦA spec1 c from hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pds m) ((pds m 1 c).share_full fun _ => rfl)
      (E3 m c) (E4 m c) ((pds m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev sgs : List (Pipeline.Seg (pcfgs (F := F)) padm (pds m) () defs₀ vars₀ noPairs noLevel) :=
  [ .host (hostSeg hostOps0 hostOps0_sub ops0_fresh (W0 m)),
    .region (rg0 m),
    .host (hostSeg hostOps1 hostOps1_sub ops1_fresh (W2 m)),
    .region (rg1 m),
    .host (hostSeg hostOps2 hostOps2_sub ops2_fresh (W4 m)) ]

theorem main_run (c : Dev nD) : main (F := F) c = Pipeline.Seg.run (sgs m) := (main_chain c).trans (by chain_rfl)

set_option backward.isDefEq.respectTransparency.types false in
/-- THE RUN. From any memory with zero counters every weakly fair execution of @main terminates, nothing faulting,
    and every final state has every unscoped buffer at the fold's end `W5`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) padm (pds m) () cellOf_inj emb₁ defs₀ vars₀ noPairs noLevel m ρ main (sgs m)
    (fun c Q => by rw [main_run m c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rides c)) (Tₙ := Tend m)
    (hch := ⟨fun _ => .rfl, fun _ => .rfl, fun _ => .rfl, fun _ => .rfl, fun _ => .rfl, fun c =>
      show (iprop(StableHlo.held (c : Thread nD τ) (Pipeline.ucRefs τ sig) (W5 m c) ∗ rides c) : sProp 𝕄)
          ⊢ iprop(Tend m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_arg0 m c),
     (h c _ (mem_uc main_arg1 (by decide))).trans (W5_arg1 m c),
     (h c _ (mem_uc main_arg2 (by decide))).trans (W5_arg2 m c)⟩) (run_main m ρ)

end Cert.KernelIdeal.Hand

end
-- ==== Proof.ValuesSign.lean ====
/-
  The sign of an extended real, and the two terms that compute it.

  `sgn x` is `-1` below zero (at `⊥` too), `1` above zero (at `⊤` too) and `0` at zero.  A kernel writes the sign of an
  element `a` as "where `|a| > 0`: `-1` if `a < 0`, else `1`; elsewhere `a` itself"; a host program calls its one-operand
  `sign`.  Over the extended reals both are `sgn a` at every `a`, the infinities and zero included: `|a| > 0` fails only
  at `a = 0`, where the kernel's term returns `a = 0`.
-/
import Idealize.ShloMosaic.PureOps.Ideal.Laws
import Idealize.ShloMosaic.Lib.ValueIdx

noncomputable section

namespace Cert.Values

open Idealize.ShloMosaic Idealize.ShloMosaic.ValueIdx

/-- The sign of an extended real: `-1` below zero, `1` above zero, `0` at zero. -/
def sgn (x : EReal) : EReal := Ideal.sign x

theorem sgn_of_neg {a : EReal} (h : a < 0) : sgn a = -1 := Ideal.sign_of_neg h
theorem sgn_of_pos {a : EReal} (h : 0 < a) : sgn a = 1 := Ideal.sign_of_pos h
theorem sgn_zero : sgn 0 = 0 := Ideal.sign_zero

/-- The host's one-operand `sign` at an element. -/
theorem sgn_host (a : Ideal .f32) : FloatOps.hostUnary .sign a = sgn a := rfl

/-- The kernel's select term at an element: `-1` or `1` by the order where `|a| > 0`, else `a`. -/
theorem sgn_select (a : Ideal .f32) :
    Scalar.select (FloatOps.cmpf .ogt (FloatOps.absf a) (Scalar.ofBits .f32 0x00000000#32))
        (Scalar.select (FloatOps.cmpf .olt a (Scalar.ofBits .f32 0x00000000#32)) (Scalar.ofBits .f32 0xBF800000#32)
          (Scalar.ofBits .f32 0x3F800000#32)) a
      = sgn a :=
  Ideal.jnp_sign_eq_sign_f32 a

/-- The same over a whole vector, in the form a kernel's value has it. -/
theorem sgn_select_vec {s : Shape} (x : FVec Ideal s .f32) :
    select (cmpf .ogt (absf x) (broadcast s (Scalar.ofBits .f32 0x00000000#32)))
        (select (cmpf .olt x (constant s .f32 0x00000000#32)) (constant s .f32 0xBF800000#32)
          (constant s .f32 0x3F800000#32)) x
      = fun i => sgn (x i) :=
  funext fun i => sgn_select (x i)

end Cert.Values

end
-- ==== Proof.LibKeepdims3.lean ====
/-
  Layout facts a reduction over the LAST axis of a three-axis array meets when its result is kept as a trailing
  unit axis and spread back, each read at an entry given by its coordinates: the sum along the last axis of an
  `[a, b, c]` array; an `[a, b]` array viewed as `[a, b, 1]` or as `[a, 1, b]`, and an `[a, 1]` array viewed as `[a, 1, 1]` or as `[a]`; and the
  three spreadings `[a, 1, 1] → [a, b, 1]`, `[a, b, 1] → [a, b, c]`, `[a, 1, c] → [a, b, c]`. They hold for any
  extents, and all but the sum for entries of any type.
-/
import Idealize.ShloMosaic.Lib.Pipeline.Value
import Idealize.ShloMosaic.Lib.ValueIdx
import Idealize.ShloMosaic.PureOps.Ideal.Laws

noncomputable section

open scoped BigOperators

namespace Cert.LibKeepdims3

open Idealize.ShloMosaic Idealize.ShloMosaic.ValueIdx

variable {α : Type}

/-- An `[a, b]` array cast to `[a, b, 1]` reads, at `(i, j, u)`, the operand at `(i, j)`: the same row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, 1]` array cast to `[a, 1, 1]` reads, at `(i, u, v)`, the operand at `(i, u)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i u) :=
  shapeCast_apply x h _ _ (by
    have hv : v.val = 0 := by omega
    rw [Shape.rowMajor_val_two, Shape.rowMajor_val_three]
    show i.val * 1 + u.val = (i.val * 1 + u.val) * 1 + v.val
    omega)

/-- An `[a, 1]` array cast to `[a]` reads, at `i`, the operand's one entry of row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, b]` array cast to `[a, 1, b]` reads, at `(i, u, j)`, the operand at `(i, j)`: the same row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, 1]` array spread to `[a, b, 1]` reads, at `(i, j, u)`, the operand's one entry of row `i`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, b, 1]` array spread to `[a, b, c]` reads, at `(i, j, k)`, the operand's one entry at `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array spread to `[a, b, c]` reads, at `(i, j, k)`, the operand at `(i, 0, k)`: the same for every `j`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Over the extended reals, the sum of an `[a, b, c]` array along its last axis, started from the zero word, is at
    `(i, j)` the sum over `k` of the entries `(i, j, k)`. -/
theorem multiReduction_add_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext ax
  apply Fin.ext
  match ax with
  | ⟨0, _⟩ => rfl
  | ⟨1, _⟩ => rfl
  | ⟨2, _⟩ => rfl

/-- The same sum with the accumulator's side condition typed as a printed program's evidence for it really is (the
    zero word equal to itself), so that the statement is found by rewriting inside a printed value. -/
theorem multiReduction_add_last_printed {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_last_apply src h hφ hacc i j

/-- The sum of an `[a, b]` array along its second axis, at row `i`, with the side condition typed as printed. -/
theorem multiReduction_add_rows_printed {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims3

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.ValuesKernel.lean ====
/-
  The three values the kernel writes, each read at an entry.

  * The weight block.  Entry `(p, q)` of a `512 × 4096` block is the sign of the signed-weight entry `(p, q)` times a
    scale.  The scales arrive as a `512 × 32` array, one per run of 128 consecutive columns: the array is viewed as
    `512 × 32 × 1`, spread along the new last axis to `512 × 32 × 128`, and flattened to `512 × 4096`, so column
    `q = j · 128 + k` reads scale `(p, j)`, that is `(p, q / 128)`.
  * The zero the accumulator starts from.
  * One accumulation step: the old accumulator plus, at `(p, q)`, the product of row `p` of the `1024 × 256` tile with
    row `q` of the `2048 × 256` weight tile, `Σ_k l (p, k) · r (q, k)`.  Narrowing the left tile's format changes nothing
    over the extended reals.
-/
import Idealize.ShloMosaic.Lib.ValueIdx
import Idealize.ShloMosaic.Lib.ValueLayout
import Idealize.ShloMosaic.Lib.Pipeline.Value
import Idealize.ShloMosaic.PureOps.Ideal.Laws
import proofs.«154442_j46437186404373_2_alg».proof.Proof.Gen.KernelIdeal.Skeleton
import proofs.«154442_j46437186404373_2_alg».proof.Proof.ValuesSign
import proofs.«154442_j46437186404373_2_alg».proof.Proof.LibKeepdims3
import proofs.«154442_j46437186404373_2_alg».proof.Proof.LibRowsDot

noncomputable section

open scoped BigOperators

namespace Cert.Values

open Idealize.ShloMosaic Idealize.ShloMosaic.ValueIdx

/-- An `[a, b, c]` array cast to `[a, n]` (with `n = b · c`) reads, at `(i, ρ)` with `ρ = j · c + k`, the operand at
    `(i, j, k)`: the same row-major position. -/
theorem shapeCast_abc_an_apply {α : Type} {a b c n : ℕ} (x : (⟨3, ![a, b, c]⟩ : Shape).Idx → α)
    (h : (⟨3, ![a, b, c]⟩ : Shape).ShapeCasts ⟨2, ![a, n]⟩) (hn : n = b * c) (i : Fin a) (j : Fin b) (k : Fin c) (ρ : Fin n)
    (hρ : ρ.val = j.val * c + k.val) :
    shapeCast ⟨2, ![a, n]⟩ x h (ix2 i ρ) = x (ix3 i j k) :=
  shapeCast_apply x h _ _ (by
    rw [Shape.rowMajor_val_two, Shape.rowMajor_val_three]
    show (i.val * b + j.val) * c + k.val = i.val * n + ρ.val
    rw [hρ, hn, Nat.add_mul, Nat.mul_assoc, Nat.add_assoc])

/-- The scales spread over the block: column `q` of row `p` reads the scale of row `p` and column run `q / 128`. -/
theorem scale_apply (v1 : FVec Ideal Cert.KernelIdeal.S512x32 .f32)
    (h1 : Cert.KernelIdeal.S512x32.ShapeCasts Cert.KernelIdeal.S512x32)
    (h2 : Cert.KernelIdeal.S512x32.ShapeCasts Cert.KernelIdeal.S512x32x1)
    (h3 : Cert.KernelIdeal.S512x32x1.ShapeCasts Cert.KernelIdeal.S512x32x1)
    (h4 : Cert.KernelIdeal.S512x32x1.Broadcasts Cert.KernelIdeal.S512x32x128)
    (h5 : Cert.KernelIdeal.S512x32x128.ShapeCasts Cert.KernelIdeal.S512x4096) (p : Fin 512) (q : Fin 4096) :
    shapeCast Cert.KernelIdeal.S512x4096
        (broadcastTo Cert.KernelIdeal.S512x32x128
          (shapeCast Cert.KernelIdeal.S512x32x1 (shapeCast Cert.KernelIdeal.S512x32x1 (shapeCast Cert.KernelIdeal.S512x32 v1 h1) h2) h3) h4) h5
        (ix2 p q)
      = v1 (ix2 p ⟨q.val / 128, by omega⟩) := by
  rw [shapeCast_abc_an_apply _ h5 rfl p ⟨q.val / 128, by omega⟩ ⟨q.val % 128, by omega⟩ q
        (by show q.val = q.val / 128 * 128 + q.val % 128; omega),
    Cert.LibKeepdims3.broadcastTo_ab1_abc_apply, shapeCast_self, Cert.LibKeepdims3.shapeCast_ab_ab1_apply, shapeCast_self]

/-- The weight block at `(p, q)`: the sign of the signed weight there times the scale of row `p`, column run `q / 128`. -/
theorem weight_apply (v0 : Vec Ideal Cert.KernelIdeal.S512x4096 .f32) (v1 : Vec Ideal Cert.KernelIdeal.S512x32 .f32)
    (p : Fin 512) (q : Fin 4096) :
    Cert.KernelIdeal.Gen.k0_pay1 (F := Ideal) v0 v1 (ix2 p q)
      = sgn (v0 (ix2 p q)) * v1 (ix2 p ⟨q.val / 128, by omega⟩) := by
  unfold Cert.KernelIdeal.Gen.k0_pay1
  exact congrArg₂ (· * ·) (sgn_select (v0 (ix2 p q))) (scale_apply v1 _ _ _ _ _ p q)

/-- The accumulator's first value is zero everywhere. -/
theorem zero_apply (j : Cert.KernelIdeal.S1024x2048.Idx) : Cert.KernelIdeal.Gen.k1_pay1 (F := Ideal) j = 0 := by
  unfold Cert.KernelIdeal.Gen.k1_pay1
  show shapeCast Cert.KernelIdeal.S1024x2048 (broadcast Cert.KernelIdeal.S1024x2048 (Scalar.ofBits (F := Ideal) .f32 0x00000000#32)) _ j = 0
  rw [shapeCast_self]
  exact Ideal.ofBits_zero_f32

/-- The six lists of the kernel's contraction say "second axis against second axis, no batch axis". -/
theorem rows_dot : Cert.LibRowsDot.Rows Cert.KernelIdeal.dot_S1024x256_S2048x256_S1024x2048_1_1_0_0_n_n :=
  ⟨rfl, rfl, rfl, rfl, rfl, rfl⟩

/-- One accumulation step at `(p, q)`: the old value plus row `p` of the left tile against row `q` of the weight tile. -/
theorem step_apply (v3 : Vec Ideal Cert.KernelIdeal.S1024x256 .f32) (v6 : Vec Ideal Cert.KernelIdeal.S2048x256 .bf16)
    (v8 : Vec Ideal Cert.KernelIdeal.S1024x2048 .f32) (p : Fin 1024) (q : Fin 2048) :
    Cert.KernelIdeal.Gen.k1_pay2 (F := Ideal) v3 v6 v8 (ix2 p q)
      = v8 (ix2 p q) + ∑ k : Fin 256, v3 (ix2 p k) * v6 (ix2 q k) := by
  unfold Cert.KernelIdeal.Gen.k1_pay2
  simp only [shapeCast_self]
  exact congrArg (v8 (ix2 p q) + ·)
    (rows_dot.matmul_zero_apply none (φ₁ := .bf16) (φ₂ := .bf16) (fun i => v3 i) (fun i => v6 i) p q)

end Cert.Values

end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.ValuesTiles.lean ====
/-
  Sixteen tiles of 256 make the whole axis of 4096.

  `accum d n` is what an accumulator holds after steps `0 … n` when it starts from zero and step `k` adds `d k`:
  `0 + d 0 + d 1 + … + d n`.  When `d k` is the sum of `a` over the `k`-th run of 256 consecutive positions, sixteen steps
  give the sum of `a` over all 4096 positions.  The extended reals are an additive commutative monoid, so the
  regrouping needs no finiteness.
-/
import Mathlib.Data.EReal.Basic
import proofs.«154442_j46437186404373_2_alg».proof.Proof.LibTileSum

noncomputable section

open scoped BigOperators

namespace Cert.Values

/-- The accumulator after steps `0 … n`, started from zero, step `k` adding `d k`. -/
def accum (d : ℕ → EReal) : ℕ → EReal
  | 0 => 0 + d 0
  | (n + 1) => accum d n + d (n + 1)

/-- It is the sum of the first `n + 1` increments. -/
theorem accum_eq_sum (d : ℕ → EReal) (n : ℕ) : accum d n = ∑ k ∈ Finset.range (n + 1), d k := by
  induction n with
  | zero => rw [accum, zero_add, Finset.sum_range_one]
  | succ n ih => rw [accum, ih, Finset.sum_range_succ _ (n + 1)]

/-- Sixteen steps, step `k` adding the sum of `a` over positions `k · 256 … k · 256 + 255`, sum `a` over all 4096 positions. -/
theorem accum_tiles (a : Fin 4096 → EReal) :
    accum (fun k => if h : k < 16 then ∑ j : Fin 256, a ⟨k * 256 + j.val, by omega⟩ else 0) 15 = ∑ i : Fin 4096, a i := by
  rw [accum_eq_sum]
  have hsum := Cert.LibTileSum.tile_sum 256 (fun s => if h : s < 4096 then a ⟨s, h⟩ else 0) 16
  have hall : (∑ s : Fin (16 * 256), (fun s => if h : s < 4096 then a ⟨s, h⟩ else (0 : EReal)) s.val) = ∑ i : Fin 4096, a i :=
    Finset.sum_congr rfl fun i _ => dif_pos i.isLt
  rw [← hall, ← hsum]
  refine Finset.sum_congr rfl fun k hk => ?_
  have hk16 : k < 16 := Finset.mem_range.mp hk
  rw [dif_pos hk16]
  refine Finset.sum_congr rfl fun j _ => ?_
  have hlt : k * 256 + j.val < 4096 := by have := j.isLt; omega
  rw [dif_pos hlt]

end Cert.Values

end
-- ==== Proof.ValuesProduct.lean ====
/-
  The matrix-product call's output array, entry by entry.

  The grid is 8 × 2 × 16 with the last axis fastest: position `t = 32·i + 16·j + k` reads rows `1024·i …` of the left
  operand (columns `256·k …`), rows `2048·j …` of the weight array (the same columns), and carries a `1024 × 2048`
  running sum.  At entry `(p, q)` the running sum after position `t` is the accumulator started from zero at `k = 0`
  to which each position `k' ≤ k` has added `Σ_{s < 256} x (1024·i + p, 256·k' + s) · w (2048·j + q, 256·k' + s)`.
  At `k = 15` the sixteen runs of 256 make the whole contracted axis, so the block written back is
  `Σ_{s < 4096} x (1024·i + p, s) · w (2048·j + q, s)`: block `(i, j)` of the product of every row of the left operand
  with every row of the weight array.  The sixteen-th positions' blocks tile the `8192 × 4096` output, so the output
  array ends holding that product.
-/
import proofs.«154442_j46437186404373_2_alg».proof.Proof.IdealProductCall
import proofs.«154442_j46437186404373_2_alg».proof.Proof.ValuesKernel
import proofs.«154442_j46437186404373_2_alg».proof.Proof.ValuesTiles

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

/-- Every row of the left operand against every row of the weight array. -/
def productOf (x2 : Cert.KernelIdeal.S8192x4096.Idx → EReal) (w : Cert.KernelIdeal.S4096x4096.Idx → EReal) :
    Cert.KernelIdeal.S8192x4096.Idx → EReal :=
  fun j => ∑ i : Fin 4096, x2 (ix2 (j 0) i) * w (ix2 (j 1) i)

/-! ## Where each position's blocks sit -/

/-- The block indices at position `t = 32·i + 16·j + k`: the left operand's block is `(i, k)`, the weight array's
    `(j, k)`, the output's `(i, j)`. -/
theorem idx_facts1 : ∀ t : Fin cfg1.N,
    win1_0.index t (0 : Fin 2) = t.val / 32 ∧ win1_0.index t (1 : Fin 2) = t.val % 16
    ∧ win1_1.index t (0 : Fin 2) = t.val / 16 % 2 ∧ win1_1.index t (1 : Fin 2) = t.val % 16
    ∧ win1_2.index t (0 : Fin 2) = t.val / 32 ∧ win1_2.index t (1 : Fin 2) = t.val / 16 % 2 :=
  (by decide +kernel : ∀ t : Fin grid1.N, _)

section blocks

variable {F : FTy → Type} [FloatOps F]
variable (V : (c : Dev nD) → (b : Ref sig .tc) → Buf (Elt F) ((c : Thread nD τ).loc b))

/-- Entry `(p, k)` of the left operand's block at position `t` is entry `(1024·(t / 32) + p, 256·(t % 16) + k)` of the array. -/
theorem blk1_0_apply (c : Dev nD) (t : Fin cfg1.N) (p : Fin 1024) (k : Fin 256) (r : Fin 8192) (s : Fin 4096)
    (hr : r.val = t.val / 32 * 1024 + p.val) (hs : s.val = t.val % 16 * 256 + k.val) :
    (blk1 V c 0 t : Vec F S1024x256 .f32) (ix2 p k) = (V c main_v2 : S8192x4096.Idx → Elt F .f32) (ix2 r s) := by
  obtain ⟨e0, e1, -⟩ := idx_facts1 t
  unfold blk1
  rw [View.read_apply]
  show V c main_v2 _ = V c main_v2 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 256 + 1 * k.val = s.val; rw [e1, hs]; omega

/-- Entry `(q, k)` of the weight array's block at position `t` is entry `(2048·(t / 16 % 2) + q, 256·(t % 16) + k)` of the array. -/
theorem blk1_1_apply (c : Dev nD) (t : Fin cfg1.N) (q : Fin 2048) (k : Fin 256) (o : Fin 4096) (s : Fin 4096)
    (ho : o.val = t.val / 16 % 2 * 2048 + q.val) (hs : s.val = t.val % 16 * 256 + k.val) :
    (blk1 V c 1 t : Vec F S2048x256 .bf16) (ix2 q k) = (V c main_v1 : S4096x4096.Idx → Elt F .bf16) (ix2 o s) := by
  obtain ⟨-, -, e0, e1, -⟩ := idx_facts1 t
  unfold blk1
  rw [View.read_apply]
  show V c main_v1 _ = V c main_v1 _
  congr 1
  funext a
  apply Fin.ext
  match a with
  | ⟨0, _⟩ => show win1_1.index t (0 : Fin 2) * 2048 + 1 * q.val = o.val; rw [e0, ho]; omega
  | ⟨1, _⟩ => show win1_1.index t (1 : Fin 2) * 256 + 1 * k.val = s.val; rw [e1, hs]; omega

end blocks

/-- An index of the output array is in position `t`'s block iff each coordinate is in the block's range on its axis. -/
theorem mem_blk2 (t : Fin cfg1.N) (i : S8192x4096.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v3).slice (win1_2.rect t)).set ↔ _
  rw [View.set_slice_whole, Rect.mem_set_unit]
  exact Iff.rfl

/-- Every entry `(r, o)` of the output array is in the block written back at position `32·(r / 1024) + 16·(o / 2048) + 15`. -/
theorem cover2 (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  have hN : cfg1.N = 256 := N_1
  let t : Fin cfg1.N := ⟨32 * ((i 0).val / 1024) + 16 * ((i 1).val / 2048) + 15, by rw [hN]; omega⟩
  have ht : t.val = 32 * ((i 0).val / 1024) + 16 * ((i 1).val / 2048) + 15 := rfl
  obtain ⟨-, -, -, -, e0, e1⟩ := idx_facts1 t
  refine ⟨t, (flush1_2 t).mpr (by rw [ht]; omega), ?_⟩
  rw [mem_blk2]
  intro a
  match a with
  | ⟨0, _⟩ => show win1_2.index t (0 : Fin 2) * 1024 ≤ (i 0).val ∧ (i 0).val < win1_2.index t (0 : Fin 2) * 1024 + 1024; rw [e0, ht]; omega
  | ⟨1, _⟩ => show win1_2.index t (1 : Fin 2) * 2048 ≤ (i 1).val ∧ (i 1).val < win1_2.index t (1 : Fin 2) * 2048 + 2048; rw [e1, ht]; omega

/-! ## The running sum at an entry -/

variable (V : (c : Dev nD) → (b : Ref sig .tc) → Buf (Elt Ideal) ((c : Thread nD τ).loc b))

/-- The left operand and the weight array as the call finds them. -/
abbrev lhsOf (c : Dev nD) : S8192x4096.Idx → EReal := V c main_v2
abbrev rhsOf (c : Dev nD) : S4096x4096.Idx → EReal := V c main_v1

/-- The sum of `a` over the `k`-th run of 256 consecutive positions (zero past the sixteenth run). -/
def tile (a : Fin 4096 → EReal) : ℕ → EReal :=
  fun k => if h : k < 16 then ∑ j : Fin 256, a ⟨k * 256 + j.val, by omega⟩ else 0

/-- One step at position `t`, at entry `(p, q)`: what was there plus run `t % 16` of the products of row
    `r = 1024·(t / 32) + p` of the left operand with row `o = 2048·(t / 16 % 2) + q` of the weight array. -/
theorem step_tile (c : Dev nD) (t : Fin cfg1.N) (p : Fin 1024) (q : Fin 2048) (r : Fin 8192) (o : Fin 4096)
    (hr : r.val = t.val / 32 * 1024 + p.val) (ho : o.val = t.val / 16 % 2 * 2048 + q.val) (z : Vec Ideal S1024x2048 .f32) :
    k1_pay2 (F := Ideal) (blk1 V c 0 t) (blk1 V c 1 t) z (ix2 p q)
      = z (ix2 p q) + tile (fun s => lhsOf V c (ix2 r s) * rhsOf V c (ix2 o s)) (t.val % 16) := by
  refine (Cert.Values.step_apply (blk1 V c 0 t) (blk1 V c 1 t) z p q).trans ?_
  refine congrArg (z (ix2 p q) + ·) ?_
  have hk : t.val % 16 < 16 := Nat.mod_lt _ (by decide)
  unfold tile
  rw [dif_pos hk]
  refine Finset.sum_congr rfl fun k _ => ?_
  exact congrArg₂ (· * ·)
    (blk1_0_apply V c t p k r ⟨t.val % 16 * 256 + k.val, by omega⟩ hr rfl)
    (blk1_1_apply V c t q k o ⟨t.val % 16 * 256 + k.val, by omega⟩ ho rfl)

/-- The running sum after position `n`, at entry `(p, q)`: the accumulator after steps `0 … n % 16` over the runs of the
    products of row `r` with row `o`.  By induction on the position: a position with `n % 16 = 0` starts again from zero;
    any other continues the position before, which has the same `r` and `o`. -/
theorem acc_apply (c : Dev nD) : ∀ (n : ℕ) (hn : n < cfg1.N) (p : Fin 1024) (q : Fin 2048) (r : Fin 8192) (o : Fin 4096),
    r.val = n / 32 * 1024 + p.val → o.val = n / 16 % 2 * 2048 + q.val →
    (acc V c n hn : Vec Ideal S1024x2048 .f32) (ix2 p q)
      = Cert.Values.accum (tile (fun s => lhsOf V c (ix2 r s) * rhsOf V c (ix2 o s))) (n % 16) := by
  intro n
  induction n with
  | zero =>
    intro hn p q r o hr ho
    show k1_pay2 (F := Ideal) (blk1 V c 0 ⟨0, hn⟩) (blk1 V c 1 ⟨0, hn⟩) (k1_pay1 (F := Ideal)) (ix2 p q) = _
    refine (step_tile V c ⟨0, hn⟩ p q r o hr ho _).trans ?_
    rw [Cert.Values.zero_apply]
    rfl
  | succ n ih =>
    intro hn p q r o hr ho
    by_cases h0 : (n + 1) % 16 = 0
    · have e : acc V c (n + 1) hn = k1_pay2 (blk1 V c 0 ⟨n + 1, hn⟩) (blk1 V c 1 ⟨n + 1, hn⟩) (k1_pay1 (F := Ideal)) := if_pos h0
      rw [e]
      refine (step_tile V c ⟨n + 1, hn⟩ p q r o hr ho _).trans ?_
      rw [Cert.Values.zero_apply]
      show 0 + tile _ ((n + 1) % 16) = Cert.Values.accum _ ((n + 1) % 16)
      rw [h0]
      rfl
    · have e : acc V c (n + 1) hn = k1_pay2 (blk1 V c 0 ⟨n + 1, hn⟩) (blk1 V c 1 ⟨n + 1, hn⟩) (acc V c n (Nat.lt_of_succ_lt hn)) := if_neg h0
      rw [e]
      refine (step_tile V c ⟨n + 1, hn⟩ p q r o hr ho _).trans ?_
      rw [ih (Nat.lt_of_succ_lt hn) p q r o (by omega) (by omega)]
      have hm : (n + 1) % 16 = n % 16 + 1 := by omega
      show Cert.Values.accum _ (n % 16) + tile _ ((n + 1) % 16) = Cert.Values.accum _ ((n + 1) % 16)
      rw [hm]
      rfl

/-! ## What is written back, and the array -/

/-- At a position `t` with `t % 16 = 15` the block written back is block `t` of the product: the sixteen runs make the
    whole contracted axis. -/
theorem flushed_eq (c : Dev nD) (t : Fin cfg1.N) (hf : (cfg1.win 2).flush t = true) :
    (dat1 (F := Ideal) V c).flushed 2 t
      = ((cfg1.win 2).blk t).view.read (Elt Ideal) (productOf (V c main_v2) (V c main_v1)) := by
  have h15 : t.val % 16 = 15 := (flush1_2 t).mp hf
  have hN : t.val < 256 := lt_of_lt_of_eq t.isLt (show cfg1.N = 256 from N_1)
  obtain ⟨-, -, -, -, e0, e1⟩ := idx_facts1 t
  show (cfg1.win 2).cut (grid1.coords t) ((dat1 V c).after 2 t) = _
  rw [after1_2]
  refine funext fun (y : S1024x2048.Idx) => ?_
  obtain ⟨p, q, rfl⟩ : ∃ (p : Fin 1024) (q : Fin 2048), y = ix2 p q := ⟨y 0, y 1, eq_ix2 y⟩
  obtain ⟨r, hr⟩ : ∃ r : Fin 8192, r.val = t.val / 32 * 1024 + p.val := ⟨⟨_, by omega⟩, rfl⟩
  obtain ⟨o, ho⟩ : ∃ o : Fin 4096, o.val = t.val / 16 % 2 * 2048 + q.val := ⟨⟨_, by omega⟩, rfl⟩
  have hemb : (((cfg1.win 2).blk t).view.emb (ix2 p q) : S8192x4096.Idx) = ix2 r o :=
    funext fun a => Fin.ext (by
      match a with
      | ⟨0, _⟩ => show win1_2.index t (0 : Fin 2) * 1024 + 1 * p.val = r.val; rw [e0, hr]; omega
      | ⟨1, _⟩ => show win1_2.index t (1 : Fin 2) * 2048 + 1 * q.val = o.val; rw [e1, ho]; omega)
  show (acc V c t.val t.isLt : Vec Ideal S1024x2048 .f32) (ix2 p q)
    = productOf (V c main_v2) (V c main_v1) (((cfg1.win 2).blk t).view.emb (ix2 p q))
  rw [hemb, acc_apply V c t.val t.isLt p q r o hr ho, h15]
  exact Cert.Values.accum_tiles (fun s => lhsOf V c (ix2 r s) * rhsOf V c (ix2 o s))

/-- The output array after the call: the product of every row of the left operand with every row of the weight array. -/
theorem product_array (c : Dev nD) :
    (dat1 (F := Ideal) V c).arrAt 2 cfg1.N = productOf (V c main_v2) (V c main_v1) :=
  (dat1 V c).arrAt_eq_of_cover 2 (productOf (V c main_v2) (V c main_v1)) (flushed_eq V c) cover2

end Cert.KernelIdeal.HandValue

end
-- ==== Proof.ValuesWeight.lean ====
/-
  The weight-building call's output array, entry by entry.

  The grid has eight positions; position `t` reads rows `512·t … 512·t + 511` of the signed weights (all 4096 columns)
  and of the `4096 × 32` scales, and writes the same rows of the weight array: at `(p, q)` of the block the sign of the
  signed weight there times the scale of row `p` and column run `q / 128`.  The eight blocks tile the `4096 × 4096`
  array, so it ends holding, at `(o, i)`, `sgn (sw (o, i)) · scale (o, i / 128)`.
-/
import proofs.«154442_j46437186404373_2_alg».proof.Proof.IdealWeightCall
import proofs.«154442_j46437186404373_2_alg».proof.Proof.ValuesKernel
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

/-- The weight array: at `(o, i)` the sign of the signed weight there times the scale of row `o`, column run `i / 128`. -/
def weightOf (sw : Cert.KernelIdeal.S4096x4096.Idx → EReal) (scr : Cert.KernelIdeal.S4096x32.Idx → EReal) :
    Cert.KernelIdeal.S4096x4096.Idx → EReal :=
  fun j => Cert.Values.sgn (sw j) * scr (ix2 (j 0) ⟨(j 1).val / 128, by have h : (j 1).val < 4096 := (j 1).isLt; omega⟩)

/-! ## Where each position's blocks sit -/

/-- At position `t` each of the three windows is on block `(t, 0)`: rows `512·t …`, all columns. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem hz0 : (![0, 0] : Fin 2 → ℕ) = fun _ => 0 := funext fun a => by fin_cases a <;> rfl

section blocks

variable {F : FTy → Type} [FloatOps F]
variable (V : (c : Dev nD) → (b : Ref sig .tc) → Buf (Elt F) ((c : Thread nD τ).loc b))

/-- One whole store of the value computed from the two whole loads leaves that value of the two blocks. -/
theorem wout_eq (x0 : Vec F S512x4096 .f32) (x1 : Vec F S512x32 .f32) : wout x0 x1 = k0_pay1 x0 x1 := by
  unfold wout
  rw [View.canon_unit_zero hz0]
  simp only [View.ld_unit_zero (S := S512x4096) hz0, View.ld_unit_zero (S := S512x32) hz0]

/-- Entry `(p, q)` of the signed weights' block at position `t` is entry `(512·t + p, q)` of the array. -/
theorem blk0_0_apply (c : Dev nD) (t : Fin cfg0.N) (p : Fin 512) (q : Fin 4096) (r : Fin 4096)
    (hr : r.val = t.val * 512 + p.val) :
    (blk0 V c 0 t : Vec F S512x4096 .f32) (ix2 p q) = (V c main_arg1 : S4096x4096.Idx → Elt F .f32) (ix2 r q) := by
  obtain ⟨e0, e1, -⟩ := idx_facts0 t
  unfold blk0
  rw [View.read_apply]
  show V c main_arg1 _ = V c main_arg1 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 4096 + 1 * q.val = q.val; rw [e1]; omega

/-- Entry `(p, g)` of the scales' block at position `t` is entry `(512·t + p, g)` of the array. -/
theorem blk0_1_apply (c : Dev nD) (t : Fin cfg0.N) (p : Fin 512) (g : Fin 32) (r : Fin 4096)
    (hr : r.val = t.val * 512 + p.val) :
    (blk0 V c 1 t : Vec F S512x32 .f32) (ix2 p g) = (V c main_v0 : S4096x32.Idx → Elt F .f32) (ix2 r g) := by
  obtain ⟨-, -, e0, e1, -⟩ := idx_facts0 t
  unfold blk0
  rw [View.read_apply]
  show V c main_v0 _ = V c main_v0 _
  congr 1
  funext a
  apply Fin.ext
  match a with
  | ⟨0, _⟩ => show win0_1.index t (0 : Fin 2) * 512 + 1 * p.val = r.val; rw [e0, hr]; omega
  | ⟨1, _⟩ => show win0_1.index t (1 : Fin 2) * 32 + 1 * g.val = g.val; rw [e1]; omega

end blocks

/-- An index of the weight array is in position `t`'s block iff each coordinate is in the block's range on its axis. -/
theorem mem_blk0_2 (t : Fin cfg0.N) (i : S4096x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v1).slice (win0_2.rect t)).set ↔ _
  rw [View.set_slice_whole, Rect.mem_set_unit]
  exact Iff.rfl

/-- Every entry `(o, i)` of the weight array is in the block written back at position `o / 512`. -/
theorem cover0_2 (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 8 := N_0
  let t : Fin cfg0.N := ⟨(i 0).val / 512, by rw [hN]; omega⟩
  have ht : t.val = (i 0).val / 512 := rfl
  obtain ⟨-, -, -, -, e0, e1⟩ := idx_facts0 t
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; rw [e0, ht]; omega
  | ⟨1, _⟩ => show win0_2.index t (1 : Fin 2) * 4096 ≤ (i 1).val ∧ (i 1).val < win0_2.index t (1 : Fin 2) * 4096 + 4096; rw [e1]; omega

/-! ## What is written back, and the array -/

variable (V : (c : Dev nD) → (b : Ref sig .tc) → Buf (Elt Ideal) ((c : Thread nD τ).loc b))

/-- The block written back at position `t` is block `t` of the weight array's function of the two argument arrays. -/
theorem flushed0_eq (c : Dev nD) (t : Fin cfg0.N) (hf : (cfg0.win 2).flush t = true) :
    (dat0 (F := Ideal) V c).flushed 2 t
      = ((cfg0.win 2).blk t).view.read (Elt Ideal) (weightOf (V c main_arg1) (V c main_v0)) := by
  have hN : t.val < 8 := lt_of_lt_of_eq t.isLt (show cfg0.N = 8 from N_0)
  obtain ⟨-, -, -, -, e0, e1⟩ := idx_facts0 t
  show (cfg0.win 2).cut (grid0.coords t) ((dat0 V c).after 2 t) = _
  rw [after0_2, wout_eq]
  refine funext fun (y : S512x4096.Idx) => ?_
  obtain ⟨p, q, rfl⟩ : ∃ (p : Fin 512) (q : Fin 4096), y = ix2 p q := ⟨y 0, y 1, eq_ix2 y⟩
  obtain ⟨r, hr⟩ : ∃ r : Fin 4096, r.val = t.val * 512 + p.val := ⟨⟨_, by omega⟩, rfl⟩
  have hemb : (((cfg0.win 2).blk t).view.emb (ix2 p q) : S4096x4096.Idx) = ix2 r q :=
    funext fun a => Fin.ext (by
      match a with
      | ⟨0, _⟩ => show win0_2.index t (0 : Fin 2) * 512 + 1 * p.val = r.val; rw [e0, hr]; omega
      | ⟨1, _⟩ => show win0_2.index t (1 : Fin 2) * 4096 + 1 * q.val = q.val; rw [e1]; omega)
  show (k0_pay1 (F := Ideal) (blk0 V c 0 t) (blk0 V c 1 t) : Vec Ideal S512x4096 .bf16) (ix2 p q)
    = weightOf (V c main_arg1) (V c main_v0) (((cfg0.win 2).blk t).view.emb (ix2 p q))
  rw [hemb]
  refine (Cert.Values.weight_apply (blk0 V c 0 t) (blk0 V c 1 t) p q).trans ?_
  exact congrArg₂ (fun a b => Cert.Values.sgn a * b)
    (blk0_0_apply V c t p q r hr)
    (blk0_1_apply V c t p ⟨q.val / 128, by omega⟩ r hr)

/-- The weight array after the call: the sign of every signed weight times its scale. -/
theorem weight_array (c : Dev nD) :
    (dat0 (F := Ideal) V c).arrAt 2 cfg0.N = weightOf (V c main_arg1) (V c main_v0) :=
  (dat0 V c).arrAt_eq_of_cover 2 (weightOf (V c main_arg1) (V c main_v0)) (flushed0_eq V c) cover0_2

end Cert.KernelIdeal.HandValue

end
-- ==== Proof.ValuesRef.lean ====
/-
  The reference's result read at an entry.

  The reference multiplies the sign of the `4096 × 4096` signed weights by the scales and contracts the input's last
  axis against the weights' second axis.  The scales are a vector of 131072 entries: each is repeated 128 times
  (`131072 × 128`), the repetitions are laid out in one row of 16777216 entries, and that row is cut into 4096 rows of
  4096.  So the scale at weight entry `(o, i)`, whose position in the long row is `o · 4096 + i`, is entry
  `(o · 4096 + i) / 128` of the vector, and the result at `(b, s, o)` is
  `Σ_i x (b, s, i) · (sgn (w (o, i)) · scale ((o · 4096 + i) / 128))`.
-/
import Idealize.ShloMosaic.Lib.ValueIdx
import Idealize.ShloMosaic.Lib.Pipeline.Value
import Idealize.ShloMosaic.PureOps.Ideal.Laws
import proofs.«154442_j46437186404373_2_alg».proof.Proof.Gen.ReferenceIdeal.Read
import proofs.«154442_j46437186404373_2_alg».proof.Proof.ValuesSign

noncomputable section

open scoped BigOperators

namespace Cert.Values

open Idealize.ShloMosaic Idealize.ShloMosaic.ValueIdx Cert.ReferenceIdeal.Read

/-- The reference's result at `(b, s, o)`. -/
theorem ref_apply (x : (⟨Cert.ReferenceIdeal.S4x2048x4096, .f32⟩ : BufTy).Contents (Elt Ideal))
    (sw : (⟨Cert.ReferenceIdeal.S4096x4096, .f32⟩ : BufTy).Contents (Elt Ideal))
    (sc : (⟨Cert.ReferenceIdeal.S131072, .f32⟩ : BufTy).Contents (Elt Ideal)) (b : Fin 4) (s : Fin 2048) (o : Fin 4096) :
    Cert.ReferenceIdeal.Read.val_main_v5 (F := Ideal) x sw sc (ix3 b s o)
      = ∑ i : Fin 4096, x (ix3 b s i) * (sgn (sw (ix2 o i)) * sc (ix1 ⟨(o.val * 4096 + i.val) / 128, by omega⟩)) := by
  rw [val_main_v5_apply]
  refine Finset.sum_congr rfl fun i _ => ?_
  have el : lidx_main_v5 (ix3 b s o) i = ix3 b s i := funext fun a => Fin.ext (by
    match a with
    | ⟨0, _⟩ => rfl
    | ⟨1, _⟩ => rfl
    | ⟨2, _⟩ => rfl)
  have er : ridx_main_v5 (ix3 b s o) i = ix2 o i := funext fun a => Fin.ext (by
    match a with
    | ⟨0, _⟩ => rfl
    | ⟨1, _⟩ => rfl)
  have es : idx_main_v1 (idx_main_v2 (idx_main_v3 (ix2 o i))) = ix1 ⟨(o.val * 4096 + i.val) / 128, by omega⟩ :=
    funext fun a => Fin.ext (by
      match a with
      | ⟨0, _⟩ => rfl)
  rw [el, er, val_main_v4_apply, val_main_v0_apply, val_main_v3_apply, val_main_v2_apply, val_main_v1_apply, es]
  rfl

end Cert.Values

end
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.ValuesBridge.lean ====
/-
  The kernel program as one function of its three arguments, and the reference's result: the same function.

  The kernel views the `4 × 2048 × 4096` input as `8192` rows (row `b · 2048 + s` is the old `(b, s)`) and the vector of
  131072 scales as a `4096 × 32` array (entry `(o, g)` is the old `o · 32 + g`), builds the weight array
  `sgn (w (o, i)) · scale (o, i / 128)`, multiplies every row of the input with every row of the weights, and views the
  `8192 × 4096` product as `4 × 2048 × 4096` again.  At `(b, s, o)` that is
  `Σ_i x (b, s, i) · (sgn (w (o, i)) · scale (o · 32 + i / 128))`.  The reference's result there is the same sum with the
  scale taken at `(o · 4096 + i) / 128`; and `(o · 4096 + i) / 128 = o · 32 + i / 128`, as `4096 = 32 · 128`.
-/
import proofs.«154442_j46437186404373_2_alg».proof.Proof.ValuesProduct
import proofs.«154442_j46437186404373_2_alg».proof.Proof.ValuesWeight
import proofs.«154442_j46437186404373_2_alg».proof.Proof.ValuesRef
import proofs.«154442_j46437186404373_2_alg».proof.Proof.LibFlatten3

noncomputable section

open scoped BigOperators

namespace Cert.KernelIdeal.HandValue

open Cert.KernelIdeal Cert.KernelIdeal.Gen
open Idealize.ShloMosaic Idealize.ShloMosaic.ValueIdx

/-- The kernel program's result as a function of the input, the signed weights and the scales. -/
def kernelOut (x : Cert.KernelIdeal.S4x2048x4096.Idx → EReal) (sw : Cert.KernelIdeal.S4096x4096.Idx → EReal)
    (sc : Cert.KernelIdeal.S131072.Idx → EReal) : Cert.KernelIdeal.S4x2048x4096.Idx → EReal :=
  shapeCast Cert.KernelIdeal.S4x2048x4096
    (productOf (shapeCast Cert.KernelIdeal.S8192x4096 x Cert.KernelIdeal.Facts₀.shapeCasts_S4x2048x4096_S8192x4096)
               (weightOf sw (shapeCast Cert.KernelIdeal.S4096x32 sc Cert.KernelIdeal.Facts₀.shapeCasts_S131072_S4096x32)))
    Cert.KernelIdeal.Facts₀.shapeCasts_S8192x4096_S4x2048x4096

/-- A vector of `a · b` entries cast to `[a, b]` reads, at `(o, g)`, entry `o · b + g`: the same row-major position. -/
theorem shapeCast_n_ab_apply {α : Type} {a b n : ℕ} (x : (⟨1, ![n]⟩ : Shape).Idx → α)
    (h : (⟨1, ![n]⟩ : Shape).ShapeCasts ⟨2, ![a, b]⟩) (o : Fin a) (g : Fin b) (ρ : Fin n) (hρ : ρ.val = o.val * b + g.val) :
    shapeCast ⟨2, ![a, b]⟩ x h (ix2 o g) = x (ix1 ρ) :=
  shapeCast_apply x h _ _ (by
    rw [Shape.rowMajor_val_one, Shape.rowMajor_val_two]
    show ρ.val = o.val * b + g.val
    exact hρ)

/-- The kernel's result at `(b, s, o)`. -/
theorem kernelOut_apply (x : Cert.KernelIdeal.S4x2048x4096.Idx → EReal) (sw : Cert.KernelIdeal.S4096x4096.Idx → EReal)
    (sc : Cert.KernelIdeal.S131072.Idx → EReal) (b : Fin 4) (s : Fin 2048) (o : Fin 4096) :
    kernelOut x sw sc (ix3 b s o)
      = ∑ i : Fin 4096, x (ix3 b s i) * (Cert.Values.sgn (sw (ix2 o i)) * sc (ix1 ⟨o.val * 32 + i.val / 128, by omega⟩)) := by
  unfold kernelOut
  rw [Cert.LibFlatten3.shapeCast_mc_abc_apply _ _ b s o ⟨b.val * 2048 + s.val, by omega⟩ rfl]
  unfold productOf
  refine Finset.sum_congr rfl fun i _ => ?_
  show shapeCast Cert.KernelIdeal.S8192x4096 x _ (ix2 (⟨b.val * 2048 + s.val, by omega⟩ : Fin 8192) i)
      * weightOf sw (shapeCast Cert.KernelIdeal.S4096x32 sc _) (ix2 o i) = _
  rw [Cert.LibFlatten3.shapeCast_abc_mc_apply x _ b s i ⟨b.val * 2048 + s.val, by omega⟩ rfl]
  unfold weightOf
  show x (ix3 b s i) * (Cert.Values.sgn (sw (ix2 o i))
      * shapeCast Cert.KernelIdeal.S4096x32 sc _ (ix2 o (⟨i.val / 128, by omega⟩ : Fin 32))) = _
  rw [shapeCast_n_ab_apply sc _ o ⟨i.val / 128, by omega⟩ ⟨o.val * 32 + i.val / 128, by omega⟩ rfl]

/-- The kernel program's function of the arguments is the reference's last stage. -/
theorem kernelOut_eq_ref (x : Cert.KernelIdeal.S4x2048x4096.Idx → EReal) (sw : Cert.KernelIdeal.S4096x4096.Idx → EReal)
    (sc : Cert.KernelIdeal.S131072.Idx → EReal) :
    kernelOut x sw sc = Cert.ReferenceIdeal.Read.val_main_v5 (F := Ideal) x sw sc := by
  funext j
  obtain ⟨b, s, o, rfl⟩ : ∃ (b : Fin 4) (s : Fin 2048) (o : Fin 4096), j = ix3 b s o := ⟨j 0, j 1, j 2, eq_ix3 j⟩
  rw [kernelOut_apply]
  refine ((Cert.Values.ref_apply x sw sc b s o).trans ?_).symm
  refine Finset.sum_congr rfl fun i _ => ?_
  have e : (⟨(o.val * 4096 + i.val) / 128, by omega⟩ : Fin 131072) = ⟨o.val * 32 + i.val / 128, by omega⟩ :=
    Fin.ext (by show (o.val * 4096 + i.val) / 128 = o.val * 32 + i.val / 128; omega)
  rw [e]

end Cert.KernelIdeal.HandValue

end
-- ==== Proof.IdealValue.lean ====
/-
  What the idealized kernel program leaves in its result buffer, as one function of the three argument arrays: the
  fold of the buffers' contents read at the result. The last host line reshapes the matrix-product call's output;
  that output is every row of the reshaped left operand against every row of the weight array; the weight array is
  what the weight-building call leaves from the sign array and the reshaped scale vector; and each argument reaches
  the call that reads it unchanged.
-/
import proofs.«154442_j46437186404373_2_alg».proof.Proof.IdealRun
import proofs.«154442_j46437186404373_2_alg».proof.Proof.ValuesProduct
import proofs.«154442_j46437186404373_2_alg».proof.Proof.ValuesWeight
import proofs.«154442_j46437186404373_2_alg».proof.Proof.ValuesBridge
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

/-- The weight-building call finds the sign array as launched, -/
theorem signs_in : E1 m c main_arg1 = m ((c : Thread nD τ).loc main_arg1) :=
  (keeps0 _ main_arg1 (by decide)).trans rfl

/-- and the scale vector reshaped to [4096, 32]. -/
theorem scales_in : E1 m c main_v0 = shapeCast _ (m ((c : Thread nD τ).loc main_arg2)) shapeCasts_S131072_S4096x32 := by
  show StableHlo.after hostOps0 (W0 m c) (Proc.devRef .tc main_v0) = _
  after_results <;> rfl

/-- The matrix-product call finds the left operand reshaped to [8192, 4096], -/
theorem left_in : E3 m c main_v2 = shapeCast _ (m ((c : Thread nD τ).loc main_arg0)) shapeCasts_S4x2048x4096_S8192x4096 := by
  have h : W2 m c (Proc.devRef .tc main_arg0) = m ((c : Thread nD τ).loc main_arg0) :=
    (W2_of_ne m c main_arg0 (by decide)).trans ((keeps0 _ main_arg0 (by decide)).trans rfl)
  have e : StableHlo.after hostOps1 (W2 m c) (Proc.devRef .tc main_v2)
      = shapeCast _ (W2 m c (Proc.devRef .tc main_arg0)) shapeCasts_S4x2048x4096_S8192x4096 := by
    after_results <;> rfl
  exact e.trans (by rw [h])

/-- and the weight array as the weight-building call left it. -/
theorem weight_in : E3 m c main_v1
    = weightOf (m ((c : Thread nD τ).loc main_arg1)) (shapeCast _ (m ((c : Thread nD τ).loc main_arg2)) shapeCasts_S131072_S4096x32) := by
  have h1 : E3 m c main_v1 = W2 m c (Proc.devRef .tc main_v1) := keeps1 _ main_v1 (by decide)
  have h2 : W2 m c (Proc.devRef .tc main_v1) = (dat0 (E1 m) c).arrAt 2 cfg0.N := W2_arr m c 2
  rw [h1, h2, weight_array, signs_in, scales_in]

/-- The result buffer at the end. -/
theorem end_value : W5 m c (Proc.devRef .tc main_v4)
    = kernelOut (m ((c : Thread nD τ).loc main_arg0)) (m ((c : Thread nD τ).loc main_arg1)) (m ((c : Thread nD τ).loc main_arg2)) := by
  have e : StableHlo.after hostOps2 (W4 m c) (Proc.devRef .tc main_v4)
      = shapeCast _ (W4 m c (Proc.devRef .tc main_v3)) shapeCasts_S8192x4096_S4x2048x4096 := by
    after_results <;> rfl
  have e4 : W4 m c (Proc.devRef .tc main_v3) = (dat1 (E3 m) c).arrAt 2 cfg1.N := W4_arr m c 2
  show StableHlo.after hostOps2 (W4 m c) (Proc.devRef .tc main_v4) = _
  rw [e, e4, product_array, left_in, weight_in]
  rfl

end Cert.KernelIdeal.HandValue

end
-- ==== Proof.lean ====
/-
  The certificate of a weight-reconstructing linear layer. The kernel program builds a weight array
  W[o, i] = sign(sw[o, i]) · scales[32·o + i / 128] in one call (row blocks of 512), then computes
  out[r, o] = Σ_i x[r, i] · W[o, i] in a second call that walks the contracted axis in 16 tiles of 256 and carries
  the running sum in a scratch block, between reshapes of the scale vector, of the left operand and of the result.
  The reference builds the same weight array with host operations and contracts once over all 4096 positions.

  The three frames: each kernel program's run is the chain of its five segments, each call a segment over its own
  proof data (the second call's invariant names the scratch's contents point by point), and the argument arrays read
  back through the fold of buffer contents to the launch memory; the reference's frame is its run with the result
  dropped. The idealization replaced one window (1.0 with the operand's sign bit) by a comparison with zero: its
  statement is the rule's own. The two idealized programs agree because the kernel's result, read through the fold,
  is the reshape of (rows of x) against (rows of W): a sum over 16 tiles of 256 is the sum over 4096 positions in
  any additive commutative monoid, so no finiteness is used, and the two sign functions are one function on the
  extended reals.
-/
import proofs.«154442_j46437186404373_2_alg».proof.Defs
import proofs.«154442_j46437186404373_2_alg».proof.Proof.Gen.Kernel
import proofs.«154442_j46437186404373_2_alg».proof.Proof.Gen.KernelIdeal
import proofs.«154442_j46437186404373_2_alg».proof.Proof.Gen.ReferenceIdeal
import proofs.«154442_j46437186404373_2_alg».proof.Proof.Gen.Pre_finite_inputs
import proofs.«154442_j46437186404373_2_alg».proof.Proof.Gen.ReferenceIdeal.Run
import proofs.«154442_j46437186404373_2_alg».proof.Proof.Gen.ReferenceIdeal.Read
import proofs.«154442_j46437186404373_2_alg».proof.Proof.WordRun
import proofs.«154442_j46437186404373_2_alg».proof.Proof.IdealRun
import proofs.«154442_j46437186404373_2_alg».proof.Proof.IdealValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_word : Cert.frame_Kernel := fun m ρ _ => Cert.Kernel.Hand.frame (F := Bits) m ρ

/-- The idealized kernel program runs and leaves its arguments unchanged. -/
theorem frame_ideal : Cert.frame_KernelIdeal := fun m ρ _ => Cert.KernelIdeal.Hand.frame (F := Ideal) m ρ

/-- The reference's frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The one rewrite of the idealization: 1.0 with the operand's sign bit is −1.0 below zero and 1.0 otherwise. -/
theorem preserves : Cert.preserves_Kernel_KernelIdeal := IdealRules.sign_bit.statement Cert.KernelIdeal.S512x4096 .f32

/-- From memories that agree on the arguments both idealized programs end with the same result array: the kernel's
    is the fold's end read at the result buffer, the reference's its last stage, and the two are one function of the
    arguments. -/
theorem algebraic : Cert.algebraic_KernelIdeal_ReferenceIdeal := by
  intro m ρ m' ρ' _ hagree
  refine ⟨fun c => Cert.KernelIdeal.HandValue.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c =>
      ⟨(h c _ (Cert.KernelIdeal.Hand.mem_uc Cert.KernelIdeal.main_v4 (by decide))).trans (Cert.KernelIdeal.HandValue.end_value m c),
       (h c _ (Cert.KernelIdeal.Hand.mem_uc Cert.KernelIdeal.main_arg0 (by decide))).trans (Cert.KernelIdeal.Hand.W5_arg0 m c),
       (h c _ (Cert.KernelIdeal.Hand.mem_uc Cert.KernelIdeal.main_arg1 (by decide))).trans (Cert.KernelIdeal.Hand.W5_arg1 m c),
       (h c _ (Cert.KernelIdeal.Hand.mem_uc Cert.KernelIdeal.main_arg2 (by decide))).trans (Cert.KernelIdeal.Hand.W5_arg2 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v5_eq,
      ← Cert.KernelIdeal.HandValue.kernelOut_eq_ref]

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
